-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S8x1x2048 : Shape := ⟨3, ![8, 1, 2048]⟩
abbrev S8x2048 : Shape := ⟨2, ![8, 2048]⟩
abbrev S8x2048x4096 : Shape := ⟨3, ![8, 2048, 4096]⟩
abbrev S8x4096 : Shape := ⟨2, ![8, 4096]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S8x1x2048 : S_.BroadcastsInDim S8x1x2048 (![] : Fin 0 → Fin S8x1x2048.rank)
  reducesTo_S8x1x2048_S_d0_1_2 : S8x1x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096 .f32) (main_v13 : IVec S_ 1) (main_v16 : IVec S8x2048x4096 1) : IVec S_ 1 :=
  let main_c_5 : IVec S_ 1 := constantI S_ 1 1#1
  let main_v17 : IVec S_ 1 := (fun x v => Host.reduce IntOp.andi x v reducesTo_S8x2048x4096_S_d0_1_2 h_S_) main_v16 main_c_5
  let main_v18 : IVec S_ 1 := andi main_v13 main_v17
  let main_v19 : FVec F S8x4096 .f32 := Host.absf main_arg4
  let main_cst_6 : FVec F S_ .f32 := constant S_ .f32 0x7F800000#32
  let main_v20 : FVec F S8x4096 .f32 := broadcastInDim S8x4096 ![] bcast_S_S8x4096 main_cst_6
  let main_v21 : IVec S8x4096 1 := cmpf .olt main_v19 main_v20
  let main_c_7 : IVec S_ 1 := constantI S_ 1 1#1
  let main_v22 : IVec S_ 1 := (fun x v => Host.reduce IntOp.andi x v reducesTo_S8x4096_S_d0_1 h_S_) main_v21 main_c_7
  let main_v23 : IVec S_ 1 := andi main_v18 main_v22
  main_v23

def fn {F : FTy → Type} [FloatOps F] (main_arg0 : FVec F S4096x1 .f32) (main_arg1 : FVec F S8x1x2048 .f32) (main_arg2 : FVec F S8x2048 .f32) (main_arg3 : FVec F S8x2048x4096 .f32) (main_arg4 : FVec F S8x4096 .f32) (main_arg5 : IVec S_ 32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S8x1x2048 .f32 := Host.absf main_arg1
  let main_cst_0 : FVec F S_ .f32 := constant S_ .f32 0x7F800000#32
  let main_v5 : FVec F S8x1x2048 .f32 := broadcastInDim S8x1x2048 ![] bcast_S_S8x1x2048 main_cst_0
  let main_v6 : IVec S8x1x2048 1 := cmpf .olt main_v4 main_v5
  let main_c_1 : IVec S_ 1 := constantI S_ 1 1#1
  let main_v7 : IVec S_ 1 := (fun x v => Host.reduce IntOp.andi x v reducesTo_S8x1x2048_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x4096 .f32 := Host.absf main_arg3
  let main_cst_4 : FVec F S_ .f32 := constant S_ .f32 0x7F800000#32
  let main_v15 : FVec F S8x2048x4096 .f32 := broadcastInDim S8x2048x4096 ![] bcast_S_S8x2048x4096 main_cst_4
  let main_v16 : IVec S8x2048x4096 1 := cmpf .olt main_v14 main_v15
  fn_part1 (F := F) main_arg4 main_v13 main_v16
-- ==== Kernel.lean ====
abbrev S4096x1 : Shape := ⟨2, ![4096, 1]⟩
abbrev S8x1x2048 : Shape := ⟨3, ![8, 1, 2048]⟩
abbrev S8x2048 : Shape := ⟨2, ![8, 2048]⟩
abbrev S8x2048x4096 : Shape := ⟨3, ![8, 2048, 4096]⟩
abbrev S8x4096 : Shape := ⟨2, ![8, 4096]⟩
abbrev S_ : Shape := ⟨0, ![]⟩
abbrev S4096 : Shape := ⟨1, ![4096]⟩
abbrev S8x1x4096 : Shape := ⟨3, ![8, 1, 4096]⟩
abbrev S4096x4096 : Shape := ⟨2, ![4096, 4096]⟩
abbrev S128x1 : Shape := ⟨2, ![128, 1]⟩
abbrev S1x1x2048 : Shape := ⟨3, ![1, 1, 2048]⟩
abbrev S1x2048x4096 : Shape := ⟨3, ![1, 2048, 4096]⟩
abbrev S1x1x4096 : Shape := ⟨3, ![1, 1, 4096]⟩
abbrev S128x4096 : Shape := ⟨2, ![128, 4096]⟩
abbrev S2048 : Shape := ⟨1, ![2048]⟩
abbrev S2048x4096 : Shape := ⟨2, ![2048, 4096]⟩
abbrev S1x2048 : Shape := ⟨2, ![1, 2048]⟩
abbrev S128x2048 : Shape := ⟨2, ![128, 2048]⟩
abbrev S1x4096 : Shape := ⟨2, ![1, 4096]⟩

abbrev nBuf : Space → Nat
  | .hbm => 51
  | .vmem => 14
  | .smem => 0
  | _ => 0

abbrev bufTy : (tb : Table) → Fin (tcTables nBuf tb) → BufTy
  | .hbm, ⟨0, _⟩ => ⟨S4096x1, .f32⟩
  | .hbm, ⟨1, _⟩ => ⟨S8x1x2048, .f32⟩
  | .hbm, ⟨2, _⟩ => ⟨S8x2048, .f32⟩
  | .hbm, ⟨3, _⟩ => ⟨S8x2048x4096, .f32⟩
  | .hbm, ⟨4, _⟩ => ⟨S8x4096, .f32⟩
  | .hbm, ⟨5, _⟩ => ⟨S_, .i32⟩
  | .hbm, ⟨6, _⟩ => ⟨S4096, .f32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S_, .i1⟩
  | .hbm, ⟨38, _⟩ => ⟨S4096, .i1⟩
  | .hbm, ⟨39, _⟩ => ⟨S4096, .i1⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S4096x1, .f32⟩
  | .hbm, ⟨46, _⟩ => ⟨S4096x1, .i32⟩
  | .hbm, ⟨47, _⟩ => ⟨S8x1x2048, .f32⟩
  | .hbm, ⟨48, _⟩ => ⟨S8x1x4096, .f32⟩
  | .hbm, ⟨49, _⟩ => ⟨S8x2048x4096, .bf16⟩
  | .hbm, ⟨50, _⟩ => ⟨S4096x4096, .f32⟩
  | .local _ .vmem, ⟨0, _⟩ => ⟨S128x1, .f32⟩
  | .local _ .vmem, ⟨1, _⟩ => ⟨S128x1, .f32⟩
  | .local _ .vmem, ⟨2, _⟩ => ⟨S128x1, .i32⟩
  | .local _ .vmem, ⟨3, _⟩ => ⟨S128x1, .i32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x4096, .bf16⟩
  | .local _ .vmem, ⟨9, _⟩ => ⟨S1x2048x4096, .bf16⟩
  | .local _ .vmem, ⟨10, _⟩ => ⟨S1x1x4096, .f32⟩
  | .local _ .vmem, ⟨11, _⟩ => ⟨S1x1x4096, .f32⟩
  | .local _ .vmem, ⟨12, _⟩ => ⟨S128x4096, .f32⟩
  | .local _ .vmem, ⟨13, _⟩ => ⟨S128x4096, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_c : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_0 : Ref sig .tc := ⟨.hbm, 20, rfl⟩
abbrev main_call0_v11 : Ref sig .tc := ⟨.hbm, 21, rfl⟩
abbrev main_call0_v12 : Ref sig .tc := ⟨.hbm, 22, rfl⟩
abbrev main_v2 : Ref sig .tc := ⟨.hbm, 23, rfl⟩
abbrev main_call1_c : Ref sig .tc := ⟨.hbm, 24, rfl⟩
abbrev main_call1_v0 : Ref sig .tc := ⟨.hbm, 25, rfl⟩
abbrev main_call1_c_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_c_1 : Ref sig .tc := ⟨.hbm, 30, rfl⟩
abbrev main_call1_v4 : Ref sig .tc := ⟨.hbm, 31, rfl⟩
abbrev main_call1_v5 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_c_3 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4096x1_S4096 : S4096x1.ShapeCasts S4096
  bcast_S_S4096 : S_.BroadcastsInDim S4096 (![] : Fin 0 → Fin S4096.rank)
  shapeCasts_S4096_S4096x1 : S4096.ShapeCasts S4096x1
  shapeCasts_S8x2048_S8x1x2048 : S8x2048.ShapeCasts S8x1x2048
  shapeCasts_S8x4096_S8x1x4096 : S8x4096.ShapeCasts S8x1x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S1x1x2048_S1x1x2048 : S1x1x2048.ShapeCasts S1x1x2048
  inb_S1x2048x4096_S1x2048x4096_0_0_0 : ∀ a, (![0, 0, 0] : Fin 3 → Nat) a + S1x2048x4096.size a ≤ S1x2048x4096.size a
  h_S1x2048x4096 : 0 < S1x2048x4096.numel
  shapeCasts_S1x2048x4096_S1x2048x4096 : S1x2048x4096.ShapeCasts S1x2048x4096
  shapeCasts_S1x2048x4096_S2048x4096 : S1x2048x4096.ShapeCasts S2048x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  shapeCasts_S1x1x4096_S4096 : S1x1x4096.ShapeCasts S4096
  shapeCasts_S2048_S1x2048 : S2048.ShapeCasts S1x2048
  broadcasts_S128x1_S128x2048 : S128x1.Broadcasts S128x2048
  broadcasts_S1x2048_S128x2048 : S1x2048.Broadcasts S128x2048
  natLt_1_32 : 1 < 32
  shapeCasts_S4096_S1x4096 : S4096.ShapeCasts S1x4096
  broadcasts_S1x4096_S128x4096 : S1x4096.Broadcasts S128x4096
  broadcasts_S128x1_S128x4096 : S128x1.Broadcasts S128x4096
  shapeCasts_S128x4096_S128x4096 : S128x4096.ShapeCasts S128x4096
  dot_S128x2048_S2048x4096_S128x4096_1_0_0_1_n_n_wf : DotDims.WF S128x2048 S2048x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S4096x1.size a
  hwx0_0 : ∀ i : grid0.Coords, EltTy.bits .f32 = 32 ∨ (Rect.block (s := S4096x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .i32 = 32 ∨ (Rect.block (s := S4096x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x4096.size a ≤ S8x2048x4096.size a
  hwx0_4 : ∀ i : grid0.Coords, EltTy.bits .bf16 = 32 ∨ (Rect.block (s := S8x2048x4096) S1x2048x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S8x1x4096.size a
  hwx0_5 : ∀ i : grid0.Coords, EltTy.bits .f32 = 32 ∨ (Rect.block (s := S8x1x4096) S1x1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)

variable [Facts₀]

def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf

abbrev win0_0 : Pipeline.Window sig grid0 :=
  Pipeline.Window.ofSpec (Memref.whole main_v5) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S128x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1 : Shape := ⟨2, ![4096, 1]⟩
abbrev S8x1x2048 : Shape := ⟨3, ![8, 1, 2048]⟩
abbrev S8x2048 : Shape := ⟨2, ![8, 2048]⟩
abbrev S8x2048x4096 : Shape := ⟨3, ![8, 2048, 4096]⟩
abbrev S8x4096 : Shape := ⟨2, ![8, 4096]⟩
abbrev S_ : Shape := ⟨0, ![]⟩
abbrev S4096 : Shape := ⟨1, ![4096]⟩
abbrev S4096x2 : Shape := ⟨2, ![4096, 2]⟩
abbrev S4096x2048 : Shape := ⟨2, ![4096, 2048]⟩
abbrev S4096x4096 : Shape := ⟨2, ![4096, 4096]⟩
abbrev S1x2048x4096 : Shape := ⟨3, ![1, 2048, 4096]⟩
abbrev S2048x4096 : Shape := ⟨2, ![2048, 4096]⟩
abbrev S1x4096 : Shape := ⟨2, ![1, 4096]⟩

abbrev nBuf : Space → Nat
  | .hbm => 221
  | .vmem => 0
  | .smem => 0
  | _ => 0

abbrev hbmTy0_0 (i : Nat) : BufTy := match i % 128 with
  | 0 => ⟨S4096x1, .f32⟩
  | 1 => ⟨S8x1x2048, .f32⟩
  | 2 => ⟨S8x2048, .f32⟩
  | 3 => ⟨S8x2048x4096, .f32⟩
  | 4 => ⟨S8x4096, .f32⟩
  | 5 => ⟨S_, .i32⟩
  | 6 => ⟨S4096, .f32⟩
  | 7 => ⟨S4096, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S4096, .i32⟩
  | 15 => ⟨S4096, .i32⟩
  | 16 => ⟨S_, .i32⟩
  | 17 => ⟨S4096, .i32⟩
  | 18 => ⟨S4096, .i1⟩
  | 19 => ⟨S4096, .i1⟩
  | 20 => ⟨S_, .i32⟩
  | 21 => ⟨S4096, .i32⟩
  | 22 => ⟨S4096, .i32⟩
  | 23 => ⟨S4096, .i32⟩
  | 24 => ⟨S_, .i32⟩
  | 25 => ⟨S_, .i1⟩
  | 26 => ⟨S_, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i1⟩
  | 36 => ⟨S_, .i32⟩
  | 37 => ⟨S_, .i1⟩
  | 38 => ⟨S4096, .i1⟩
  | 39 => ⟨S4096, .i1⟩
  | 40 => ⟨S4096, .i1⟩
  | 41 => ⟨S4096, .i32⟩
  | 42 => ⟨S4096, .i32⟩
  | 43 => ⟨S4096, .i32⟩
  | 44 => ⟨S4096, .f32⟩
  | 45 => ⟨S4096x1, .f32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096x1, .i32⟩
  | 57 => ⟨S4096x1, .i32⟩
  | 58 => ⟨S4096x2, .i32⟩
  | 59 => ⟨S4096x2048, .f32⟩
  | 60 => ⟨S4096x2048, .f32⟩
  | 61 => ⟨S4096x2048, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x2048, .f32⟩
  | 71 => ⟨S4096x2048, .f32⟩
  | 72 => ⟨S_, .f32⟩
  | 73 => ⟨S4096x2048, .f32⟩
  | 74 => ⟨S4096x2048, .f32⟩
  | 75 => ⟨S_, .f32⟩
  | 76 => ⟨S4096x4096, .f32⟩
  | 77 => ⟨S_, .i32⟩
  | 78 => ⟨S4096, .i32⟩
  | 79 => ⟨S4096, .i1⟩
  | 80 => ⟨S4096, .f32⟩
  | 81 => ⟨S4096x1, .f32⟩
  | 82 => ⟨S4096x2048, .f32⟩
  | 83 => ⟨S4096x2048, .f32⟩
  | 84 => ⟨S1x2048x4096, .f32⟩
  | 85 => ⟨S2048x4096, .f32⟩
  | 86 => ⟨S4096x4096, .f32⟩
  | 87 => ⟨S1x4096, .f32⟩
  | 88 => ⟨S4096, .f32⟩
  | 89 => ⟨S1x4096, .f32⟩
  | 90 => ⟨S4096x4096, .f32⟩
  | 91 => ⟨S4096x4096, .f32⟩
  | 92 => ⟨S4096x4096, .f32⟩
  | 93 => ⟨S4096x4096, .f32⟩
  | 94 => ⟨S4096x4096, .f32⟩
  | 95 => ⟨S_, .i32⟩
  | 96 => ⟨S4096, .i32⟩
  | 97 => ⟨S4096, .i1⟩
  | 98 => ⟨S4096, .f32⟩
  | 99 => ⟨S4096x1, .f32⟩
  | 100 => ⟨S4096x2048, .f32⟩
  | 101 => ⟨S4096x2048, .f32⟩
  | 102 => ⟨S1x2048x4096, .f32⟩
  | 103 => ⟨S2048x4096, .f32⟩
  | 104 => ⟨S4096x4096, .f32⟩
  | 105 => ⟨S1x4096, .f32⟩
  | 106 => ⟨S4096, .f32⟩
  | 107 => ⟨S1x4096, .f32⟩
  | 108 => ⟨S4096x4096, .f32⟩
  | 109 => ⟨S4096x4096, .f32⟩
  | 110 => ⟨S4096x4096, .f32⟩
  | 111 => ⟨S4096x4096, .f32⟩
  | 112 => ⟨S4096x4096, .f32⟩
  | 113 => ⟨S_, .i32⟩
  | 114 => ⟨S4096, .i32⟩
  | 115 => ⟨S4096, .i1⟩
  | 116 => ⟨S4096, .f32⟩
  | 117 => ⟨S4096x1, .f32⟩
  | 118 => ⟨S4096x2048, .f32⟩
  | 119 => ⟨S4096x2048, .f32⟩
  | 120 => ⟨S1x2048x4096, .f32⟩
  | 121 => ⟨S2048x4096, .f32⟩
  | 122 => ⟨S4096x4096, .f32⟩
  | 123 => ⟨S1x4096, .f32⟩
  | 124 => ⟨S4096, .f32⟩
  | 125 => ⟨S1x4096, .f32⟩
  | 126 => ⟨S4096x4096, .f32⟩
  | 127 => ⟨S4096x4096, .f32⟩
  | _ => ⟨S4096x1, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .i32⟩
  | 4 => ⟨S4096, .i32⟩
  | 5 => ⟨S4096, .i1⟩
  | 6 => ⟨S4096, .f32⟩
  | 7 => ⟨S4096x1, .f32⟩
  | 8 => ⟨S4096x2048, .f32⟩
  | 9 => ⟨S4096x2048, .f32⟩
  | 10 => ⟨S1x2048x4096, .f32⟩
  | 11 => ⟨S2048x4096, .f32⟩
  | 12 => ⟨S4096x4096, .f32⟩
  | 13 => ⟨S1x4096, .f32⟩
  | 14 => ⟨S4096, .f32⟩
  | 15 => ⟨S1x4096, .f32⟩
  | 16 => ⟨S4096x4096, .f32⟩
  | 17 => ⟨S4096x4096, .f32⟩
  | 18 => ⟨S4096x4096, .f32⟩
  | 19 => ⟨S4096x4096, .f32⟩
  | 20 => ⟨S4096x4096, .f32⟩
  | 21 => ⟨S_, .i32⟩
  | 22 => ⟨S4096, .i32⟩
  | 23 => ⟨S4096, .i1⟩
  | 24 => ⟨S4096, .f32⟩
  | 25 => ⟨S4096x1, .f32⟩
  | 26 => ⟨S4096x2048, .f32⟩
  | 27 => ⟨S4096x2048, .f32⟩
  | 28 => ⟨S1x2048x4096, .f32⟩
  | 29 => ⟨S2048x4096, .f32⟩
  | 30 => ⟨S4096x4096, .f32⟩
  | 31 => ⟨S1x4096, .f32⟩
  | 32 => ⟨S4096, .f32⟩
  | 33 => ⟨S1x4096, .f32⟩
  | 34 => ⟨S4096x4096, .f32⟩
  | 35 => ⟨S4096x4096, .f32⟩
  | 36 => ⟨S4096x4096, .f32⟩
  | 37 => ⟨S4096x4096, .f32⟩
  | 38 => ⟨S4096x4096, .f32⟩
  | 39 => ⟨S_, .i32⟩
  | 40 => ⟨S4096, .i32⟩
  | 41 => ⟨S4096, .i1⟩
  | 42 => ⟨S4096, .f32⟩
  | 43 => ⟨S4096x1, .f32⟩
  | 44 => ⟨S4096x2048, .f32⟩
  | 45 => ⟨S4096x2048, .f32⟩
  | 46 => ⟨S1x2048x4096, .f32⟩
  | 47 => ⟨S2048x4096, .f32⟩
  | 48 => ⟨S4096x4096, .f32⟩
  | 49 => ⟨S1x4096, .f32⟩
  | 50 => ⟨S4096, .f32⟩
  | 51 => ⟨S1x4096, .f32⟩
  | 52 => ⟨S4096x4096, .f32⟩
  | 53 => ⟨S4096x4096, .f32⟩
  | 54 => ⟨S4096x4096, .f32⟩
  | 55 => ⟨S4096x4096, .f32⟩
  | 56 => ⟨S4096x4096, .f32⟩
  | 57 => ⟨S_, .i32⟩
  | 58 => ⟨S4096, .i32⟩
  | 59 => ⟨S4096, .i1⟩
  | 60 => ⟨S4096, .f32⟩
  | 61 => ⟨S4096x1, .f32⟩
  | 62 => ⟨S4096x2048, .f32⟩
  | 63 => ⟨S4096x2048, .f32⟩
  | 64 => ⟨S1x2048x4096, .f32⟩
  | 65 => ⟨S2048x4096, .f32⟩
  | 66 => ⟨S4096x4096, .f32⟩
  | 67 => ⟨S1x4096, .f32⟩
  | 68 => ⟨S4096, .f32⟩
  | 69 => ⟨S1x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S_, .i32⟩
  | 76 => ⟨S4096, .i32⟩
  | 77 => ⟨S4096, .i1⟩
  | 78 => ⟨S4096, .f32⟩
  | 79 => ⟨S4096x1, .f32⟩
  | 80 => ⟨S4096x2048, .f32⟩
  | 81 => ⟨S4096x2048, .f32⟩
  | 82 => ⟨S1x2048x4096, .f32⟩
  | 83 => ⟨S2048x4096, .f32⟩
  | 84 => ⟨S4096x4096, .f32⟩
  | 85 => ⟨S1x4096, .f32⟩
  | 86 => ⟨S4096, .f32⟩
  | 87 => ⟨S1x4096, .f32⟩
  | 88 => ⟨S4096x4096, .f32⟩
  | 89 => ⟨S4096x4096, .f32⟩
  | 90 => ⟨S4096x4096, .f32⟩
  | 91 => ⟨S4096x4096, .f32⟩
  | 92 => ⟨S4096x4096, .f32⟩
  | _ => ⟨S4096x1, .f32⟩

abbrev hbmTy (i : Nat) : BufTy := match i / 128 with
  | 0 => hbmTy0_0 i
  | 1 => hbmTy0_1 i
  | _ => ⟨S4096x1, .f32⟩

abbrev bufTy : (tb : Table) → Fin (tcTables nBuf tb) → BufTy
  | .hbm, ⟨i, _⟩ => hbmTy i
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_c : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_0 : Ref sig .tc := ⟨.hbm, 20, rfl⟩
abbrev main_call0_v11 : Ref sig .tc := ⟨.hbm, 21, rfl⟩
abbrev main_call0_v12 : Ref sig .tc := ⟨.hbm, 22, rfl⟩
abbrev main_v2 : Ref sig .tc := ⟨.hbm, 23, rfl⟩
abbrev main_call1_c : Ref sig .tc := ⟨.hbm, 24, rfl⟩
abbrev main_call1_v0 : Ref sig .tc := ⟨.hbm, 25, rfl⟩
abbrev main_call1_c_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_c_1 : Ref sig .tc := ⟨.hbm, 30, rfl⟩
abbrev main_call1_v4 : Ref sig .tc := ⟨.hbm, 31, rfl⟩
abbrev main_call1_v5 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_c_3 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_c : Ref sig .tc := ⟨.hbm, 46, rfl⟩
abbrev main_v6 : Ref sig .tc := ⟨.hbm, 47, rfl⟩
abbrev main_v7 : Ref sig .tc := ⟨.hbm, 48, rfl⟩
abbrev main_c_0 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_c_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_2 : Ref sig .tc := ⟨.hbm, 62, rfl⟩
abbrev main_v19 : Ref sig .tc := ⟨.hbm, 63, rfl⟩
abbrev main_v20 : Ref sig .tc := ⟨.hbm, 64, rfl⟩
abbrev main_c_3 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call2_cst : Ref sig .tc := ⟨.hbm, 72, rfl⟩
abbrev main_call2_v0 : Ref sig .tc := ⟨.hbm, 73, rfl⟩
abbrev main_v27 : Ref sig .tc := ⟨.hbm, 74, rfl⟩
abbrev main_cst : Ref sig .tc := ⟨.hbm, 75, rfl⟩
abbrev main_v28 : Ref sig .tc := ⟨.hbm, 76, rfl⟩
abbrev main_c_4 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_c_5 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_c_6 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_7 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_c_8 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_c_9 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_10 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_c_11 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩

abbrev nD : Nat := 1
abbrev τ : Topo := Topo.v7x

variable {F : FTy → Type} [FloatOps F]

class Facts₀ : Prop where
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  bcast_S_S4096x4096 : S_.BroadcastsInDim S4096x4096 (![] : Fin 0 → Fin S4096x4096.rank)
  slices_S8x2048x4096_S1x2048x4096_0_0_0 : S8x2048x4096.Slices ![0, 0, 0] S1x2048x4096
  shapeCasts_S1x2048x4096_S2048x4096 : S1x2048x4096.ShapeCasts S2048x4096
  slices_S8x4096_S1x4096_0_0 : S8x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  slices_S8x2048x4096_S1x2048x4096_1_0_0 : S8x2048x4096.Slices ![1, 0, 0] S1x2048x4096
  slices_S8x4096_S1x4096_1_0 : S8x4096.Slices ![1, 0] S1x4096
  slices_S8x2048x4096_S1x2048x4096_2_0_0 : S8x2048x4096.Slices ![2, 0, 0] S1x2048x4096
  slices_S8x4096_S1x4096_2_0 : S8x4096.Slices ![2, 0] S1x4096
  slices_S8x2048x4096_S1x2048x4096_3_0_0 : S8x2048x4096.Slices ![3, 0, 0] S1x2048x4096
  slices_S8x4096_S1x4096_3_0 : S8x4096.Slices ![3, 0] S1x4096
  slices_S8x2048x4096_S1x2048x4096_4_0_0 : S8x2048x4096.Slices ![4, 0, 0] S1x2048x4096
  slices_S8x4096_S1x4096_4_0 : S8x4096.Slices ![4, 0] S1x4096
  slices_S8x2048x4096_S1x2048x4096_5_0_0 : S8x2048x4096.Slices ![5, 0, 0] S1x2048x4096
  slices_S8x4096_S1x4096_5_0 : S8x4096.Slices ![5, 0] S1x4096
  slices_S8x2048x4096_S1x2048x4096_6_0_0 : S8x2048x4096.Slices ![6, 0, 0] S1x2048x4096
  slices_S8x4096_S1x4096_6_0 : S8x4096.Slices ![6, 0] S1x4096
  slices_S8x2048x4096_S1x2048x4096_7_0_0 : S8x2048x4096.Slices ![7, 0, 0] S1x2048x4096
  slices_S8x4096_S1x4096_7_0 : S8x4096.Slices ![7, 0] S1x4096
  gather_S8x1x2048_S4096x2_S4096x2048_1_01_n_n_01_1_112048_wf : GatherDims.WF S8x1x2048 S4096x2 S4096x2048 [1] [0, 1] [] [0, 1] [] 1 ![1, 1, 2048]
  gather_S8x2048_S4096x1_S4096x2048_1_0_n_n_0_1_12048_wf : GatherDims.WF S8x2048 S4096x1 S4096x2048 [1] [0] [] [0] [] 1 ![1, 2048]
  dot_S4096x2048_S2048x4096_S4096x4096_1_0_0_1_n_n_wf : DotDims.WF S4096x2048 S2048x4096 S4096x4096 [1] [0] [0] [1] [] []

variable [Facts₀]

def gather_S8x1x2048_S4096x2_S4096x2048_1_01_n_n_01_1_112048 : GatherDims S8x1x2048 S4096x2 S4096x2048 where
  offsetDims := [1]
  collapsedSliceDims := [0, 1]
  operandBatchingDims := []
  startIndicesBatchingDims := []
  startIndexMap := [0, 1]
  indexVectorDim := 1
  sliceSizes := ![1, 1, 2048]
  wf := gather_S8x1x2048_S4096x2_S4096x2048_1_01_n_n_01_1_112048_wf
def gather_S8x2048_S4096x1_S4096x2048_1_0_n_n_0_1_12048 : GatherDims S8x2048 S4096x1 S4096x2048 where
  offsetDims := [1]
  collapsedSliceDims := [0]
  operandBatchingDims := []
  startIndicesBatchingDims := []
  startIndexMap := [0]
  indexVectorDim := 1
  sliceSizes := ![1, 2048]
  wf := gather_S8x2048_S4096x1_S4096x2048_1_0_n_n_0_1_12048_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.Spec.lean ====
/-
  The part of the computation that the kernel's program and the reference share word for word: from the column of
  frame numbers (floats holding integers) and the number of frames per expert, the expert each row is routed to
  (the floor quotient) and the frame's position inside its expert (the non-negative remainder, as a float).
  Both programs spell these with the same integer operations, so each is stated once here, as one function of the
  two arguments, and never opened: the equivalence only needs that the two programs compute the SAME routing.
-/
import Idealize.ShloMosaic.PureOps.Ideal
import Idealize.ShloMosaic.Lib.ValueIdx

noncomputable section

namespace Switch

open Idealize.ShloMosaic

abbrev Scol : Shape := ⟨2, ![4096, 1]⟩
abbrev Svec : Shape := ⟨1, ![4096]⟩
abbrev Sscalar : Shape := ⟨0, ![]⟩

theorem col_casts_vec : Scol.ShapeCasts Svec := by decide
theorem scalar_spreads : Sscalar.BroadcastsInDim Svec (![] : Fin 0 → Fin Svec.rank) := by decide

variable {F : FTy → Type} [FloatOps F]

/-- The frame numbers as integers: the column read as a vector, each float converted to a signed 32-bit integer. -/
def frames (a0 : FVec F Scol .f32) : IVec Svec 32 :=
  fptosi 32 (shapeCast Svec a0 col_casts_vec)

/-- Floor division of a vector by a scalar, as the host spells it: the truncated quotient, less one where the signs
    differ and the remainder is not zero. -/
def floorDiv (x : IVec Svec 32) (d : IVec Sscalar 32) : IVec Svec 32 :=
  select
    (andi (cmpi .ne (signi x) (broadcastInDim Svec ![] scalar_spreads (signi d)))
          (cmpi .ne (Host.remsi x (broadcastInDim Svec ![] scalar_spreads d))
                    (broadcastInDim Svec ![] scalar_spreads (constantI Sscalar 32 0#32))))
    (subi (Host.divsi x (broadcastInDim Svec ![] scalar_spreads d))
          (broadcastInDim Svec ![] scalar_spreads (constantI Sscalar 32 1#32)))
    (Host.divsi x (broadcastInDim Svec ![] scalar_spreads d))

/-- The divisor the host's remainder really uses: one in place of zero. -/
def safeDivisor (d : IVec Sscalar 32) : IVec Sscalar 32 :=
  select (cmpi .eq d (constantI Sscalar 32 0#32)) (constantI Sscalar 32 1#32) d

/-- The remainder with the sign of the divisor, as the host spells it: the truncated remainder, plus the divisor
    where it is not zero and its sign differs from the divisor's. -/
def floorRem (x : IVec Svec 32) (d : IVec Sscalar 32) : IVec Svec 32 :=
  select
    (andi (cmpi .ne (cmpi .slt (Host.remsi x (broadcastInDim Svec ![] scalar_spreads (safeDivisor d)))
                               (broadcastInDim Svec ![] scalar_spreads (constantI Sscalar 32 0#32)))
                    (broadcastInDim Svec ![] scalar_spreads (cmpi .slt (safeDivisor d) (constantI Sscalar 32 0#32))))
          (cmpi .ne (Host.remsi x (broadcastInDim Svec ![] scalar_spreads (safeDivisor d)))
                    (broadcastInDim Svec ![] scalar_spreads (constantI Sscalar 32 0#32))))
    (addi (Host.remsi x (broadcastInDim Svec ![] scalar_spreads (safeDivisor d)))
          (broadcastInDim Svec ![] scalar_spreads (safeDivisor d)))
    (Host.remsi x (broadcastInDim Svec ![] scalar_spreads (safeDivisor d)))

/-- The expert of each row. -/
def expertOf (a0 : FVec F Scol .f32) (a5 : IVec Sscalar 32) : IVec Svec 32 := floorDiv (frames a0) a5

/-- Each row's position inside its expert, as a float. -/
def positionOf (a0 : FVec F Scol .f32) (a5 : IVec Sscalar 32) : FVec F Svec .f32 :=
  sitofp .f32 (floorRem (frames a0) a5)

end Switch

end
-- ==== Proof.KernelArrays.lean ====
/-
  What the kernel's launch finds in the arrays its windows read. Before the launch the program computes the routing
  it shares with the reference (each row's expert; each row's position inside its expert, as a float), hands both to
  the kernel as columns, gives the first-layer bias and the second-layer bias a middle unit axis, and narrows the
  second-layer weights to bf16. Each array is stated as that function of the arguments.
-/
import proofs.«169237_j8847632630028_1_alg».proof.Proof.Gen.KernelIdeal.Frame
import proofs.«169237_j8847632630028_1_alg».proof.Proof.Spec
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 1600000 in
/-- Window 0's array: each row's position inside its expert, as a column. -/
theorem positions_col (c : Dev nD) :
    (V m c main_v5 : S4096x1.Idx → F .f32)
      = shapeCast S4096x1 (Switch.positionOf (m ((c : Thread nD τ).loc main_arg0)) (m ((c : Thread nD τ).loc main_arg5))) shapeCasts_S4096_S4096x1 := by
  show StableHlo.after (List.flatten [hostOps0, hostOps0_1, hostOps0_2, hostOps0_3]) (fun b => m (c, b)) (Proc.devRef .tc main_v5) = _
  simp only [Gen.hostOps0, Gen.hostOps0_1, Gen.hostOps0_2, Gen.hostOps0_3, List.flatten_cons, List.flatten_nil, List.append_nil,
    List.cons_append, List.nil_append]
  after_results_simp
  rfl

set_option maxHeartbeats 1600000 in
/-- Window 1's array: each row's expert, as a column. -/
theorem experts_col (c : Dev nD) :
    (V m c main_v6 : S4096x1.Idx → BitVec 32)
      = shapeCast S4096x1 (Switch.expertOf (F := F) (m ((c : Thread nD τ).loc main_arg0)) (m ((c : Thread nD τ).loc main_arg5))) shapeCasts_S4096_S4096x1 := by
  show StableHlo.after (List.flatten [hostOps0, hostOps0_1, hostOps0_2, hostOps0_3]) (fun b => m (c, b)) (Proc.devRef .tc main_v6) = _
  simp only [Gen.hostOps0, Gen.hostOps0_1, Gen.hostOps0_2, Gen.hostOps0_3, List.flatten_cons, List.flatten_nil, List.append_nil,
    List.cons_append, List.nil_append]
  after_results_simp
  rfl

/-- Window 3's array: the first-layer bias with a middle unit axis. -/
theorem bias1_slab (c : Dev nD) :
    (V m c main_v7 : S8x1x2048.Idx → F .f32)
      = shapeCast S8x1x2048 (m ((c : Thread nD τ).loc main_arg2)) shapeCasts_S8x2048_S8x1x2048 := by
  show StableHlo.after (List.flatten [hostOps0, hostOps0_1, hostOps0_2, hostOps0_3]) (fun b => m (c, b)) (Proc.devRef .tc main_v7) = _
  simp only [Gen.hostOps0, Gen.hostOps0_1, Gen.hostOps0_2, Gen.hostOps0_3, List.flatten_cons, List.flatten_nil, List.append_nil,
    List.cons_append, List.nil_append]
  after_results_simp
  rfl

/-- Window 5's array: the second-layer bias with a middle unit axis. -/
theorem bias2_slab (c : Dev nD) :
    (V m c main_v8 : S8x1x4096.Idx → F .f32)
      = shapeCast S8x1x4096 (m ((c : Thread nD τ).loc main_arg4)) shapeCasts_S8x4096_S8x1x4096 := by
  show StableHlo.after (List.flatten [hostOps0, hostOps0_1, hostOps0_2, hostOps0_3]) (fun b => m (c, b)) (Proc.devRef .tc main_v8) = _
  simp only [Gen.hostOps0, Gen.hostOps0_1, Gen.hostOps0_2, Gen.hostOps0_3, List.flatten_cons, List.flatten_nil, List.append_nil,
    List.cons_append, List.nil_append]
  after_results_simp
  rfl

/-- Window 4's array: the second-layer weights narrowed to bf16. -/
theorem weights2_narrow (c : Dev nD) :
    (V m c main_v9 : S8x2048x4096.Idx → F .bf16)
      = truncf .bf16 (m ((c : Thread nD τ).loc main_arg3)) bitsLt_bf16_f32 := by
  show StableHlo.after (List.flatten [hostOps0, hostOps0_1, hostOps0_2, hostOps0_3]) (fun b => m (c, b)) (Proc.devRef .tc main_v9) = _
  simp only [Gen.hostOps0, Gen.hostOps0_1, Gen.hostOps0_2, Gen.hostOps0_3, List.flatten_cons, List.flatten_nil, List.append_nil,
    List.cons_append, List.nil_append]
  after_results_simp

end Cert.KernelIdeal.Arrays

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.KernelBlocks.lean ====
/-
  The blocks the kernel's body finds at a grid point, read at an index. The grid has 32 row tiles by 8 experts; point t
  is row tile t / 8 at expert t % 8. The position and expert columns move with the row tile (128 rows a block); the
  first-layer weight and bias rows, the second-layer matrix and the second-layer bias row move with the expert (one
  expert a block). So at point t the body sees rows 128 (t / 8) … 128 (t / 8) + 127 and expert t % 8's tables.
-/
import proofs.«169237_j8847632630028_1_alg».proof.Proof.KernelArrays
import proofs.«169237_j8847632630028_1_alg».proof.Proof.LibKeepdims
import proofs.«169237_j8847632630028_1_alg».proof.Proof.LibUnitAxisLayout
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided over the grid: which block of each array point t stages, and the expert
    coordinate of the point. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 3) = t.val % 8 ∧ win0_2.index t (1 : Fin 3) = 0 ∧ win0_2.index t (2 : Fin 3) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 3) = t.val % 8 ∧ win0_5.index t (1 : Fin 3) = 0 ∧ win0_5.index t (2 : Fin 3) = 0
    ∧ ((grid0.coords t) 1).val = t.val % 8 :=
  (by decide +kernel : ∀ t : Fin grid0.N, _)

theorem point_lt (t : Fin cfg0.N) : t.val < 256 := lt_of_lt_of_eq t.isLt (show cfg0.N = 256 from N_0)

/-- The row of the whole arrays that row p of point t's block is. -/
def rowOf (t : Fin cfg0.N) (p : Fin 128) : Fin 4096 := ⟨128 * (t.val / 8) + p.val, by have := point_lt t; have := p.isLt; omega⟩

/-- The expert of point t. -/
def expertAt (t : Fin cfg0.N) : Fin 8 := ⟨t.val % 8, Nat.mod_lt _ (by decide)⟩

theorem coord_expert (t : Fin cfg0.N) : ((grid0.coords t) 1).val = (expertAt t).val := (idx_facts t).2.2.2.2.2.2.2.2.2.2.2.2.2.2.2.2

/-- Row p of the position block at point t. -/
theorem position_block (c : Dev nD) (t : Fin cfg0.N) (p : Fin 128) (u : Fin 1) :
    (iblk m c 0 t : S128x1.Idx → EReal) (ix2 p u)
      = Switch.positionOf (F := Ideal) (m ((c : Thread nD τ).loc main_arg0)) (m ((c : Thread nD τ).loc main_arg5)) (ix1 (rowOf t p)) := by
  obtain ⟨e0, e1, -⟩ := idx_facts t
  show V m c main_v5 (((cfg0.win 0).blk t).view.emb (ix2 p u)) = _
  rw [Arrays.positions_col]
  have hu : u.val = 0 := by omega
  have he : ((cfg0.win 0).blk t).view.emb (ix2 p u) = ix2 (rowOf t p) (0 : Fin 1) := by
    funext a; apply Fin.ext
    match a with
    | ⟨0, _⟩ => show win0_0.index t (0 : Fin 2) * 128 + 1 * p.val = 128 * (t.val / 8) + p.val; rw [e0]; omega
    | ⟨1, _⟩ => show win0_0.index t (1 : Fin 2) * 1 + 1 * u.val = 0; rw [e1]; omega
  rw [he]
  exact Cert.LibKeepdims.shapeCast_a_a1_apply _ _ (rowOf t p) (0 : Fin 1)

/-- Row p of the expert block at point t. -/
theorem expert_block (c : Dev nD) (t : Fin cfg0.N) (p : Fin 128) (u : Fin 1) :
    (iblk m c 1 t : S128x1.Idx → BitVec 32) (ix2 p u)
      = Switch.expertOf (F := Ideal) (m ((c : Thread nD τ).loc main_arg0)) (m ((c : Thread nD τ).loc main_arg5)) (ix1 (rowOf t p)) := by
  obtain ⟨-, -, e0, e1, -⟩ := idx_facts t
  show V m c main_v6 (((cfg0.win 1).blk t).view.emb (ix2 p u)) = _
  rw [Arrays.experts_col]
  have hu : u.val = 0 := by omega
  have he : ((cfg0.win 1).blk t).view.emb (ix2 p u) = ix2 (rowOf t p) (0 : Fin 1) := by
    funext a; apply Fin.ext
    match a with
    | ⟨0, _⟩ => show win0_1.index t (0 : Fin 2) * 128 + 1 * p.val = 128 * (t.val / 8) + p.val; rw [e0]; omega
    | ⟨1, _⟩ => show win0_1.index t (1 : Fin 2) * 1 + 1 * u.val = 0; rw [e1]; omega
  rw [he]
  exact Cert.LibKeepdims.shapeCast_a_a1_apply _ _ (rowOf t p) (0 : Fin 1)

/-- The first-layer weight row of point t's expert. -/
theorem weight1_block (c : Dev nD) (t : Fin cfg0.N) (u v : Fin 1) (kk : Fin 2048) :
    (iblk m c 2 t : S1x1x2048.Idx → EReal) (ix3 u v kk) = m ((c : Thread nD τ).loc main_arg1) (ix3 (expertAt t) (0 : Fin 1) kk) := by
  obtain ⟨-, -, -, -, e0, e1, e2, -⟩ := idx_facts t
  show V m c main_arg1 (((cfg0.win 2).blk t).view.emb (ix3 u v kk)) = _
  rw [V_main_arg1]
  have hu : u.val = 0 := by omega
  have hv : v.val = 0 := by omega
  refine congrArg _ (funext fun a => Fin.ext ?_)
  match a with
  | ⟨0, _⟩ => show win0_2.index t (0 : Fin 3) * 1 + 1 * u.val = t.val % 8; rw [e0]; omega
  | ⟨1, _⟩ => show win0_2.index t (1 : Fin 3) * 1 + 1 * v.val = 0; rw [e1]; omega
  | ⟨2, _⟩ => show win0_2.index t (2 : Fin 3) * 2048 + 1 * kk.val = kk.val; rw [e2]; omega

/-- The first-layer bias row of point t's expert. -/
theorem bias1_block (c : Dev nD) (t : Fin cfg0.N) (u v : Fin 1) (kk : Fin 2048) :
    (iblk m c 3 t : S1x1x2048.Idx → EReal) (ix3 u v kk) = m ((c : Thread nD τ).loc main_arg2) (ix2 (expertAt t) kk) := by
  obtain ⟨-, -, -, -, -, -, -, e0, e1, e2, -⟩ := idx_facts t
  show V m c main_v7 (((cfg0.win 3).blk t).view.emb (ix3 u v kk)) = _
  rw [Arrays.bias1_slab]
  have hu : u.val = 0 := by omega
  have hv : v.val = 0 := by omega
  have he : ((cfg0.win 3).blk t).view.emb (ix3 u v kk) = ix3 (expertAt t) (0 : Fin 1) kk := by
    funext a; apply Fin.ext
    match a with
    | ⟨0, _⟩ => show win0_3.index t (0 : Fin 3) * 1 + 1 * u.val = t.val % 8; rw [e0]; omega
    | ⟨1, _⟩ => show win0_3.index t (1 : Fin 3) * 1 + 1 * v.val = 0; rw [e1]; omega
    | ⟨2, _⟩ => show win0_3.index t (2 : Fin 3) * 2048 + 1 * kk.val = kk.val; rw [e2]; omega
  rw [he]
  exact UnitAxisLayout.shapeCast_ac_a1c_apply _ _ (expertAt t) (0 : Fin 1) kk

/-- The second-layer matrix of point t's expert (its narrowing to bf16 is the identity on extended reals). -/
theorem weight2_block (c : Dev nD) (t : Fin cfg0.N) (u : Fin 1) (kk : Fin 2048) (d : Fin 4096) :
    (iblk m c 4 t : S1x2048x4096.Idx → EReal) (ix3 u kk d) = m ((c : Thread nD τ).loc main_arg3) (ix3 (expertAt t) kk d) := by
  obtain ⟨-, -, -, -, -, -, -, -, -, -, e0, e1, e2, -⟩ := idx_facts t
  show V m c main_v9 (((cfg0.win 4).blk t).view.emb (ix3 u kk d)) = _
  rw [Arrays.weights2_narrow]
  have hu : u.val = 0 := by omega
  show m ((c : Thread nD τ).loc main_arg3) (((cfg0.win 4).blk t).view.emb (ix3 u kk d)) = _
  refine congrArg _ (funext fun a => Fin.ext ?_)
  match a with
  | ⟨0, _⟩ => show win0_4.index t (0 : Fin 3) * 1 + 1 * u.val = t.val % 8; rw [e0]; omega
  | ⟨1, _⟩ => show win0_4.index t (1 : Fin 3) * 2048 + 1 * kk.val = kk.val; rw [e1]; omega
  | ⟨2, _⟩ => show win0_4.index t (2 : Fin 3) * 4096 + 1 * d.val = d.val; rw [e2]; omega

/-- The second-layer bias row of point t's expert. -/
theorem bias2_block (c : Dev nD) (t : Fin cfg0.N) (u v : Fin 1) (d : Fin 4096) :
    (iblk m c 5 t : S1x1x4096.Idx → EReal) (ix3 u v d) = m ((c : Thread nD τ).loc main_arg4) (ix2 (expertAt t) d) := by
  obtain ⟨-, -, -, -, -, -, -, -, -, -, -, -, -, e0, e1, e2, -⟩ := idx_facts t
  show V m c main_v8 (((cfg0.win 5).blk t).view.emb (ix3 u v d)) = _
  rw [Arrays.bias2_slab]
  have hu : u.val = 0 := by omega
  have hv : v.val = 0 := by omega
  have he : ((cfg0.win 5).blk t).view.emb (ix3 u v d) = ix3 (expertAt t) (0 : Fin 1) d := by
    funext a; apply Fin.ext
    match a with
    | ⟨0, _⟩ => show win0_5.index t (0 : Fin 3) * 1 + 1 * u.val = t.val % 8; rw [e0]; omega
    | ⟨1, _⟩ => show win0_5.index t (1 : Fin 3) * 1 + 1 * v.val = 0; rw [e1]; omega
    | ⟨2, _⟩ => show win0_5.index t (2 : Fin 3) * 4096 + 1 * d.val = d.val; rw [e2]; omega
  rw [he]
  exact UnitAxisLayout.shapeCast_ac_a1c_apply _ _ (expertAt t) (0 : Fin 1) d

end Cert.KernelIdeal.Blocks

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.KernelPayload.lean ====
/-
  The kernel body's arithmetic at one grid point, read at an index.

  At a point the body holds a block of 128 rows: their positions (a column), their experts (a column), and the point's
  expert's first-layer weight row, first-layer bias row, second-layer matrix and second-layer bias row. It forms the gate
  of each row (one when the row's expert is the point's expert, else zero), the gated hidden activations
  max(position * weight + bias, 0) * gate, their product with the matrix, adds the bias row, multiplies by the gate again
  and adds the result to what the output block held. Each of these is stated below at a row p and a column.
-/
import proofs.«169237_j8847632630028_1_alg».proof.Proof.Gen.KernelIdeal.Skeleton
import proofs.«169237_j8847632630028_1_alg».proof.Proof.LibKeepdims
import proofs.«169237_j8847632630028_1_alg».proof.Proof.LibInnerProducts
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- A [1, 1, c] array cast to [c] reads, at k, the operand at (0, 0, k). -/
theorem shapeCast_11c_c_apply {α : Type} {c : ℕ} (x : (⟨3, ![1, 1, c]⟩ : Shape).Idx → α)
    (h : (⟨3, ![1, 1, c]⟩ : Shape).ShapeCasts ⟨1, ![c]⟩) (k : Fin c) :
    shapeCast ⟨1, ![c]⟩ x h (ix1 k) = x (ix3 (0 : Fin 1) (0 : Fin 1) k) :=
  shapeCast_apply x h _ _ (by
    rw [Shape.rowMajor_val_three, Shape.rowMajor_val_one]
    show (0 * 1 + 0) * c + k.val = k.val
    simp)

/-- The gate of a row whose expert word is `b` at the point whose expert is `s`: the comparison's bit, widened to a
    word and read as a signed integer (so one or zero). -/
def gateWord (b : BitVec 32) (s : ℕ) : EReal :=
  FloatOps.sitofp (F := Ideal) .f32 ((IntOp.cmpi .eq b (BitVec.ofNat 32 s)).setWidth 32)

/-- The gate column at row p. -/
theorem gate_apply (i : grid0.Coords) (x1 : Vec Ideal S128x1 .i32) (p : Fin 128) (u : Fin 1) :
    k0_pay3 (F := Ideal) i x1 (ix2 p u) = gateWord (x1 (ix2 p u)) (i 1).val := by
  unfold k0_pay3
  simp only [shapeCast_self]
  rfl

/-- The bias row spread over the block's rows, at (p, d). -/
theorem bias_apply (x5 : Vec Ideal S1x1x4096 .f32) (p : Fin 128) (d : Fin 4096) :
    k0_pay5 (F := Ideal) x5 (ix2 p d) = x5 (ix3 (0 : Fin 1) (0 : Fin 1) d) := by
  unfold k0_pay5
  simp only [shapeCast_self]
  refine (broadcastTo_1b_ab_apply _ _ p d).trans ?_
  refine (shapeCast_a_1a_apply _ _ (0 : Fin 1) d).trans ?_
  exact shapeCast_11c_c_apply x5 _ d

/-- The gated hidden activations times the expert's matrix, at (p, d): the sum over the hidden index. -/
theorem product_apply (i : grid0.Coords) (x0 : Vec Ideal S128x1 .f32) (x1 : Vec Ideal S128x1 .i32)
    (x2 x3 : Vec Ideal S1x1x2048 .f32) (x4 : Vec Ideal S1x2048x4096 .bf16) (p : Fin 128) (d : Fin 4096) :
    k0_pay4 (F := Ideal) i x0 x1 x2 x3 x4 (ix2 p d)
      = ∑ kk : Fin 2048,
          (max (x0 (ix2 p (0 : Fin 1)) * x2 (ix3 (0 : Fin 1) (0 : Fin 1) kk) + x3 (ix3 (0 : Fin 1) (0 : Fin 1) kk)) 0
              * gateWord (x1 (ix2 p (0 : Fin 1))) (i 1).val)
            * x4 (ix3 (0 : Fin 1) kk d) := by
  unfold k0_pay4
  simp only [shapeCast_self]
  refine (InnerProducts.matmul_zero_apply dot_S128x2048_S2048x4096_S128x4096_1_0_0_1_n_n rfl none _ _ p d).trans ?_
  refine Finset.sum_congr rfl fun kk _ => ?_
  simp only [truncf_apply, mulf_apply, addf_apply, maximumf_apply, broadcast_apply,
    Cert.LibKeepdims.broadcastTo_a1_ab_apply, broadcastTo_1b_ab_apply, shapeCast_a_1a_apply, shapeCast_11c_c_apply,
    shapeCast_1ab_ab_apply, gate_apply]
  have hz : (FloatOps.ofBits (F := Ideal) FTy.f32 0x00000000#32 : EReal) = 0 := Ideal.ofBits_zero_f32
  rw [hz]

/-- One step of the accumulation at (p, d): what the block held, plus (product + bias) times the row's gate. -/
theorem step_apply (g : FVec Ideal S128x1 .f32) (prod bias : FVec Ideal S128x4096 .f32) (acc : Vec Ideal S128x4096 .f32)
    (p : Fin 128) (d : Fin 4096) :
    k0_pay1 (F := Ideal) g prod bias acc (ix2 p d)
      = acc (ix2 p d) + (prod (ix2 p d) + bias (ix2 p d)) * g (ix2 p (0 : Fin 1)) := by
  unfold k0_pay1
  simp only [shapeCast_self, mulf_apply, addf_apply, Cert.LibKeepdims.broadcastTo_a1_ab_apply]

/-- The block's first contents at a reset point: zero. -/
theorem zero_apply (j : S128x4096.Idx) : k0_pay2 (F := Ideal) j = 0 := by
  unfold k0_pay2
  exact Ideal.ofBits_zero_f32

end Cert.KernelIdeal.Payload

end
-- ==== Proof.SpecGate.lean ====
/-
  One expert's contribution to one output entry, and why the two programs' spellings of it agree.

  For one row and one output column, expert s contributes (gated hidden row · matrix column + bias), gated again. The
  kernel computes the hidden row with expert s's own first-layer tables and multiplies by the gate on the right; the
  reference computes the hidden row once, with the tables of the row's own expert, and multiplies by the gate on the
  left. The gate is one or zero. Where it is one, the row's expert IS s, so the two hidden rows are the same row; where
  it is zero, each side is a product with zero, and on the extended reals a product with zero is zero whatever the other
  factor is. No finiteness of the tables is needed.
-/
import Idealize.ShloMosaic.PureOps.Ideal

noncomputable section

namespace Switch

open Idealize.ShloMosaic
open scoped BigOperators
/-- The kernel's spelling: (Σ (h · g) · w + b) · g. -/
def gatedRight (g : EReal) (h w : Fin 2048 → EReal) (b : EReal) : EReal :=
  (∑ kk : Fin 2048, (h kk * g) * w kk + b) * g

/-- The reference's spelling: g · (Σ (h · g) · w + b). -/
def gatedLeft (g : EReal) (h w : Fin 2048 → EReal) (b : EReal) : EReal :=
  g * (∑ kk : Fin 2048, (h kk * g) * w kk + b)

/-- The two spellings agree when the gate is zero, or is one with the two hidden rows equal. -/
theorem gatedRight_eq_gatedLeft (g : EReal) (h h' w : Fin 2048 → EReal) (b : EReal)
    (hg : g = 0 ∨ (g = 1 ∧ h = h')) : gatedRight g h w b = gatedLeft g h' w b := by
  unfold gatedRight gatedLeft
  rcases hg with rfl | ⟨rfl, rfl⟩
  · rw [mul_zero, zero_mul]
  · rw [mul_comm]

/-- The gate as the kernel forms it (the comparison's bit widened to a word, read signed) and as the reference forms it
    (the bit read unsigned) are the same number: one when the bit is set, zero when it is not. -/
theorem gate_bit (b : BitVec 1) :
    (FloatOps.sitofp (F := Ideal) .f32 (b.setWidth 32) : EReal) = FloatOps.uitofp (F := Ideal) .f32 b
      ∧ ((b = 1#1 ∧ (FloatOps.uitofp (F := Ideal) .f32 b : EReal) = 1) ∨ (b = 0#1 ∧ (FloatOps.uitofp (F := Ideal) .f32 b : EReal) = 0)) := by
  rcases BitVec.eq_zero_or_eq_one b with h | h <;> subst h
  · refine ⟨?_, Or.inr ⟨rfl, ?_⟩⟩
    · show (((0#1 : BitVec 1).setWidth 32).toInt : ℝ) = (((0#1 : BitVec 1).toNat : ℝ) : EReal)
      norm_num
    · show ((((0#1 : BitVec 1).toNat : ℝ) : EReal)) = 0
      norm_num
  · refine ⟨?_, Or.inl ⟨rfl, ?_⟩⟩
    · show (((1#1 : BitVec 1).setWidth 32).toInt : ℝ) = (((1#1 : BitVec 1).toNat : ℝ) : EReal)
      norm_num
    · show ((((1#1 : BitVec 1).toNat : ℝ) : EReal)) = 1
      norm_num

end Switch

end
-- ==== Proof.KernelValue.lean ====
/-
  The kernel's output array, entry by entry, as a function of the arguments.

  Output row n lies in row tile n / 128; the eight grid points of that tile visit the eight experts in order, the first
  resetting the block to zero and every point adding its expert's gated contribution. So the entry at (n, d) is zero plus
  the eight contributions, added in the experts' order.
-/
import proofs.«169237_j8847632630028_1_alg».proof.Proof.Gen.KernelIdeal.Value
import proofs.«169237_j8847632630028_1_alg».proof.Proof.KernelBlocks
import proofs.«169237_j8847632630028_1_alg».proof.Proof.KernelPayload
import proofs.«169237_j8847632630028_1_alg».proof.Proof.SpecGate

noncomputable section

namespace Cert.KernelIdeal.Out

open Cert.KernelIdeal Cert.KernelIdeal.Gen Idealize.ShloMosaic Idealize.ShloMosaic.TcCoe Idealize.SL.Sem
open Idealize.ShloMosaic.ValueIdx Cert.KernelIdeal.Blocks Cert.KernelIdeal.Payload
open scoped BigOperators

variable (m : (ℓ : Loc nD τ sig) → Buf (Elt Ideal) ℓ)

/-- The hidden activations of row n under expert s's first-layer tables. -/
def hiddenRow (c : Dev nD) (n : Fin 4096) (s : Fin 8) : Fin 2048 → EReal := fun kk =>
  max (Switch.positionOf (F := Ideal) (m ((c : Thread nD τ).loc main_arg0)) (m ((c : Thread nD τ).loc main_arg5)) (ix1 n)
        * m ((c : Thread nD τ).loc main_arg1) (ix3 s (0 : Fin 1) kk)
      + m ((c : Thread nD τ).loc main_arg2) (ix2 s kk)) 0

/-- The gate of row n at expert s, as the kernel forms it. -/
def gateOf (c : Dev nD) (n : Fin 4096) (s : Fin 8) : EReal :=
  gateWord (Switch.expertOf (F := Ideal) (m ((c : Thread nD τ).loc main_arg0)) (m ((c : Thread nD τ).loc main_arg5)) (ix1 n)) s.val

/-- Expert s's contribution to entry (n, d), in the kernel's spelling. -/
def contribution (c : Dev nD) (n d : Fin 4096) (s : Fin 8) : EReal :=
  Switch.gatedRight (gateOf m c n s) (hiddenRow m c n s)
    (fun kk => m ((c : Thread nD τ).loc main_arg3) (ix3 s kk d)) (m ((c : Thread nD τ).loc main_arg4) (ix2 s d))

/-- What a point adds to its block at (p, d): (product + bias) times the row's gate, over the point's blocks. -/
def added (c : Dev nD) (t : Fin cfg0.N) (p : Fin 128) (d : Fin 4096) : EReal :=
  (k0_pay4 (F := Ideal) (grid0.coords t) (iblk m c 0 t) (iblk m c 1 t) (iblk m c 2 t) (iblk m c 3 t) (iblk m c 4 t) (ix2 p d)
    + k0_pay5 (F := Ideal) (iblk m c 5 t) (ix2 p d))
  * k0_pay3 (F := Ideal) (grid0.coords t) (iblk m c 1 t) (ix2 p (0 : Fin 1))

/-- What a point adds is its expert's contribution to the row of the whole array that the block's row is. -/
theorem added_eq (c : Dev nD) (t : Fin cfg0.N) (p : Fin 128) (d : Fin 4096) :
    added m c t p d = contribution m c (rowOf t p) d (expertAt t) := by
  unfold added contribution Switch.gatedRight gateOf hiddenRow
  have hg : k0_pay3 (F := Ideal) (grid0.coords t) (iblk m c 1 t) (ix2 p (0 : Fin 1))
      = gateWord (Switch.expertOf (F := Ideal) (m ((c : Thread nD τ).loc main_arg0)) (m ((c : Thread nD τ).loc main_arg5)) (ix1 (rowOf t p))) (expertAt t).val :=
    (gate_apply (grid0.coords t) (iblk m c 1 t) p (0 : Fin 1)).trans (by rw [expert_block m c t p (0 : Fin 1), coord_expert t])
  have hb : k0_pay5 (F := Ideal) (iblk m c 5 t) (ix2 p d) = m ((c : Thread nD τ).loc main_arg4) (ix2 (expertAt t) d) :=
    (bias_apply (iblk m c 5 t) p d).trans (bias2_block m c t (0 : Fin 1) (0 : Fin 1) d)
  have hp : k0_pay4 (F := Ideal) (grid0.coords t) (iblk m c 0 t) (iblk m c 1 t) (iblk m c 2 t) (iblk m c 3 t) (iblk m c 4 t) (ix2 p d)
      = ∑ kk : Fin 2048,
          (max (Switch.positionOf (F := Ideal) (m ((c : Thread nD τ).loc main_arg0)) (m ((c : Thread nD τ).loc main_arg5)) (ix1 (rowOf t p))
                  * m ((c : Thread nD τ).loc main_arg1) (ix3 (expertAt t) (0 : Fin 1) kk)
                + m ((c : Thread nD τ).loc main_arg2) (ix2 (expertAt t) kk)) 0
              * gateWord (Switch.expertOf (F := Ideal) (m ((c : Thread nD τ).loc main_arg0)) (m ((c : Thread nD τ).loc main_arg5)) (ix1 (rowOf t p))) (expertAt t).val)
            * m ((c : Thread nD τ).loc main_arg3) (ix3 (expertAt t) kk d) := by
    refine (product_apply (grid0.coords t) (iblk m c 0 t) (iblk m c 1 t) (iblk m c 2 t) (iblk m c 3 t) (iblk m c 4 t) p d).trans ?_
    refine Finset.sum_congr rfl fun kk _ => ?_
    rw [position_block m c t p (0 : Fin 1), expert_block m c t p (0 : Fin 1), weight1_block m c t (0 : Fin 1) (0 : Fin 1) kk,
      bias1_block m c t (0 : Fin 1) (0 : Fin 1) kk, weight2_block m c t (0 : Fin 1) kk d, coord_expert t]
  rw [hg, hb, hp]

/-- The block after the eight points of row tile r, at (p, d): zero plus the eight additions, in order. -/
theorem tile_fold (c : Dev nD) (r : ℕ) (h : 8 * r + 7 < cfg0.N) (p : Fin 128) (d : Fin 4096) :
    Pipeline.accAt (Value.reset6 m c) (Value.step6 m c) (8 * r) 7 h (ix2 p d)
      = 0 + added m c ⟨8 * r + 0, by omega⟩ p d + added m c ⟨8 * r + 1, by omega⟩ p d + added m c ⟨8 * r + 2, by omega⟩ p d
          + added m c ⟨8 * r + 3, by omega⟩ p d + added m c ⟨8 * r + 4, by omega⟩ p d + added m c ⟨8 * r + 5, by omega⟩ p d
          + added m c ⟨8 * r + 6, by omega⟩ p d + added m c ⟨8 * r + 7, by omega⟩ p d := by
  simp only [Pipeline.accAt, Value.reset6, Value.step6, step_apply, zero_apply]
  rfl

/-- At the points of row n's tile, the block's row n % 128 is row n and the point's expert is the offset s. -/
theorem added_tile (c : Dev nD) (n d : Fin 4096) (s : ℕ) (hs : s < 8) (h : 8 * (n.val / 128) + s < cfg0.N) :
    added m c ⟨8 * (n.val / 128) + s, h⟩ ⟨n.val % 128, Nat.mod_lt _ (by decide)⟩ d = contribution m c n d ⟨s, hs⟩ := by
  rw [added_eq]
  have h1 : rowOf ⟨8 * (n.val / 128) + s, h⟩ ⟨n.val % 128, Nat.mod_lt _ (by decide)⟩ = n :=
    Fin.ext (by show 128 * ((8 * (n.val / 128) + s) / 8) + n.val % 128 = n.val; omega)
  have h2 : expertAt ⟨8 * (n.val / 128) + s, h⟩ = ⟨s, hs⟩ :=
    Fin.ext (by show (8 * (n.val / 128) + s) % 8 = s; omega)
  rw [h1, h2]

/-- THE KERNEL'S OUTPUT at (n, d): zero plus the eight experts' contributions, in the experts' order. -/
theorem out_apply (c : Dev nD) (n d : Fin 4096) :
    Value.G6 m c (ix2 n d)
      = 0 + contribution m c n d ⟨0, by decide⟩ + contribution m c n d ⟨1, by decide⟩ + contribution m c n d ⟨2, by decide⟩
          + contribution m c n d ⟨3, by decide⟩ + contribution m c n d ⟨4, by decide⟩ + contribution m c n d ⟨5, by decide⟩
          + contribution m c n d ⟨6, by decide⟩ + contribution m c n d ⟨7, by decide⟩ := by
  have hN : cfg0.N = 256 := N_0
  have hn : n.val < 4096 := n.isLt
  have hd : d.val < 4096 := d.isLt
  have hrun : Value.run6Of (ix2 n d) = n.val / 128 := by
    show 1 * (n.val / 128 - 0) + 1 * (d.val / 4096 - 0) = n.val / 128
    omega
  have hlt : 8 * (n.val / 128) + 7 < cfg0.N := by rw [hN]; omega
  have hloc : Value.loc6Of (ix2 n d) = ix2 (⟨n.val % 128, Nat.mod_lt _ (by decide)⟩ : Fin 128) d := by
    funext a; apply Fin.ext
    match a with
    | ⟨0, _⟩ => rfl
    | ⟨1, _⟩ => show d.val % 4096 = d.val; omega
  have same : ∀ (b b' : ℕ) (h : b + 7 < cfg0.N) (h' : b' + 7 < cfg0.N), b = b' →
      Pipeline.accAt (Value.reset6 m c) (Value.step6 m c) b 7 h = Pipeline.accAt (Value.reset6 m c) (Value.step6 m c) b' 7 h' := by
    intro b b' h h' hb; subst hb; rfl
  unfold Value.G6
  rw [dif_pos (by rw [hrun]; exact hlt), hloc, same _ (8 * (n.val / 128)) _ hlt (by rw [hrun]), tile_fold m c (n.val / 128) hlt]
  rw [added_tile m c n d 0 (by decide), added_tile m c n d 1 (by decide), added_tile m c n d 2 (by decide),
    added_tile m c n d 3 (by decide), added_tile m c n d 4 (by decide), added_tile m c n d 5 (by decide),
    added_tile m c n d 6 (by decide), added_tile m c n d 7 (by decide)]

end Cert.KernelIdeal.Out

end
-- ==== Proof.RefTerms.lean ====
/-
  The reference's value, as named terms of its arguments.

  The reference computes, for each row, the expert it is routed to (`e`, the floor quotient of the row's frame number by
  the number of frames per expert) and the frame's position inside its expert (`pos`, the non-negative remainder as a
  float); from them a hidden vector per row — the position times a row of the first table, plus a row of the second,
  both rows picked by the expert's number (a negative number counted from the end, as the gather's index
  normalisation spells it), then the positive part —; and the output is the sum over the eight experts `k` of the gate
  `[e = k]` times (the gated hidden vector times the expert's matrix, plus the expert's bias row).

  Each definition below is the composition of the pure functions of one stretch of the reference's statements, in the
  statements' own order of arguments; a conversion of an integer vector to its own type (the identity) is left out.
-/
import proofs.«169237_j8847632630028_1_alg».proof.Proof.Gen.ReferenceIdeal
import proofs.«169237_j8847632630028_1_alg».proof.Proof.Spec

noncomputable section

namespace Cert.ReferenceIdeal.RefValue

open Cert.ReferenceIdeal Cert.ReferenceIdeal.Gen Idealize.ShloMosaic

variable {F : FTy → Type} [FloatOps F]

/-- The hidden vectors (the reference's %27) from the experts `e` (%2), the positions `pos` (%4) and the two tables
    (%arg1, %arg2): statements %5 … %27. -/
def hidden (e : IVec S4096 32) (pos : FVec F S4096 .f32) (a1 : FVec F S8x1x2048 .f32) (a2 : FVec F S8x2048 .f32) :
    FVec F S4096x2048 .f32 :=
  maximumf
    (addf
      (mulf
        (broadcastInDim S4096x2048 ![0, 1] bcast_S4096x1_S4096x2048_0_1 (broadcastInDim S4096x1 ![0] bcast_S4096_S4096x1_0 pos))
        (Host.gather gather_S8x1x2048_S4096x2_S4096x2048_1_01_n_n_01_1_112048 a1
          (concatenate S4096x2 1
            [⟨S4096x1, broadcastInDim S4096x1 ![0] bcast_S4096_S4096x1_0 (select (cmpi .slt e (broadcastInDim S4096 ![] bcast_S_S4096 (constantI S_ 32 0#32))) (addi e (broadcastInDim S4096 ![] bcast_S_S4096 (constantI S_ 32 8#32))) e)⟩,
             ⟨S4096x1, broadcastInDim S4096x1 ![0] bcast_S4096_S4096x1_0 (broadcastInDim S4096 ![] bcast_S_S4096 (constantI S_ 32 0#32))⟩]
            concatenates_S4096x1_S4096x1_S4096x2_d1)))
      (Host.gather gather_S8x2048_S4096x1_S4096x2048_1_0_n_n_0_1_12048 a2
        (broadcastInDim S4096x1 ![0] bcast_S4096_S4096x1_0 (select (cmpi .slt e (broadcastInDim S4096 ![] bcast_S_S4096 (constantI S_ 32 0#32))) (addi e (broadcastInDim S4096 ![] bcast_S_S4096 (constantI S_ 32 8#32))) e))))
    (broadcastInDim S4096x2048 ![] bcast_S_S4096x2048 (constant S_ .f32 0x00000000#32))

/-- The gate of expert `k` as a column (the reference's %32, %49, …): one where the row's expert is `k`, zero elsewhere. -/
def gate (k : BitVec 32) (e : IVec S4096 32) : FVec F S4096x1 .f32 :=
  broadcastInDim S4096x1 ![0] bcast_S4096_S4096x1_0
    (uitofp .f32 (cmpi .eq e (broadcastInDim S4096 ![] bcast_S_S4096 (constantI S_ 32 k))))

/-- Expert `k`'s term of the output (the reference's %44, %61, …): the gate times (the gated hidden vectors times the
    expert's matrix, plus the expert's bias row); the matrix and the row are the slices of %arg3 and %arg4 at the offsets
    `off3`, `off2`. -/
def expertTerm (k : BitVec 32) (off3 : Fin 3 → Nat) (hs3 : S8x2048x4096.Slices off3 S1x2048x4096)
    (off2 : Fin 2 → Nat) (hs2 : S8x4096.Slices off2 S1x4096)
    (e : IVec S4096 32) (h : FVec F S4096x2048 .f32) (a3 : FVec F S8x2048x4096 .f32) (a4 : FVec F S8x4096 .f32) :
    FVec F S4096x4096 .f32 :=
  mulf
    (broadcastInDim S4096x4096 ![0, 1] bcast_S4096x1_S4096x4096_0_1 (gate k e))
    (addf
      (Host.dotGeneral dot_S4096x2048_S2048x4096_S4096x4096_1_0_0_1_n_n none
        (mulf h (broadcastInDim S4096x2048 ![0, 1] bcast_S4096x1_S4096x2048_0_1 (gate k e)))
        (shapeCast S2048x4096 (extractStridedSlice S1x2048x4096 off3 a3 hs3) shapeCasts_S1x2048x4096_S2048x4096))
      (broadcastInDim S4096x4096 ![0, 1] bcast_S1x4096_S4096x4096_0_1
        (broadcastInDim S1x4096 ![1] bcast_S4096_S1x4096_1
          (shapeCast S4096 (extractStridedSlice S1x4096 off2 a4 hs2) shapeCasts_S1x4096_S4096))))

/-- The sum of the eight experts' terms from zero, in the reference's order (%28, %45, %62, …, %164), for any experts `e`
    and hidden vectors `h`. -/
def sumOfExperts (e : IVec S4096 32) (h : FVec F S4096x2048 .f32) (a3 : FVec F S8x2048x4096 .f32) (a4 : FVec F S8x4096 .f32) :
    FVec F S4096x4096 .f32 :=
  addf (addf (addf (addf (addf (addf (addf (addf
    (broadcastInDim S4096x4096 ![] bcast_S_S4096x4096 (constant S_ .f32 0x00000000#32))
    (expertTerm 0#32 ![0, 0, 0] slices_S8x2048x4096_S1x2048x4096_0_0_0 ![0, 0] slices_S8x4096_S1x4096_0_0 e h a3 a4))
    (expertTerm 1#32 ![1, 0, 0] slices_S8x2048x4096_S1x2048x4096_1_0_0 ![1, 0] slices_S8x4096_S1x4096_1_0 e h a3 a4))
    (expertTerm 2#32 ![2, 0, 0] slices_S8x2048x4096_S1x2048x4096_2_0_0 ![2, 0] slices_S8x4096_S1x4096_2_0 e h a3 a4))
    (expertTerm 3#32 ![3, 0, 0] slices_S8x2048x4096_S1x2048x4096_3_0_0 ![3, 0] slices_S8x4096_S1x4096_3_0 e h a3 a4))
    (expertTerm 4#32 ![4, 0, 0] slices_S8x2048x4096_S1x2048x4096_4_0_0 ![4, 0] slices_S8x4096_S1x4096_4_0 e h a3 a4))
    (expertTerm 5#32 ![5, 0, 0] slices_S8x2048x4096_S1x2048x4096_5_0_0 ![5, 0] slices_S8x4096_S1x4096_5_0 e h a3 a4))
    (expertTerm 6#32 ![6, 0, 0] slices_S8x2048x4096_S1x2048x4096_6_0_0 ![6, 0] slices_S8x4096_S1x4096_6_0 e h a3 a4))
    (expertTerm 7#32 ![7, 0, 0] slices_S8x2048x4096_S1x2048x4096_7_0_0 ![7, 0] slices_S8x4096_S1x4096_7_0 e h a3 a4)

/-- The reference's output (%164) as one function of its six arguments. -/
def refOut (a0 : FVec F S4096x1 .f32) (a1 : FVec F S8x1x2048 .f32) (a2 : FVec F S8x2048 .f32)
    (a3 : FVec F S8x2048x4096 .f32) (a4 : FVec F S8x4096 .f32) (a5 : IVec S_ 32) : FVec F S4096x4096 .f32 :=
  sumOfExperts (Switch.expertOf a0 a5) (hidden (Switch.expertOf a0 a5) (Switch.positionOf a0 a5) a1 a2) a3 a4

end Cert.ReferenceIdeal.RefValue

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.RefRead.lean ====
/-
  The reference's named terms read at an index: the gate of an expert at a row, one expert's term at an output entry
  (the gate times the inner product of the row's gated hidden vector with the expert's matrix column, plus the expert's
  bias entry), and the sum of the eight terms from zero.
-/
import proofs.«169237_j8847632630028_1_alg».proof.Proof.RefTerms
import proofs.«169237_j8847632630028_1_alg».proof.Proof.SpecGate
import proofs.«169237_j8847632630028_1_alg».proof.Proof.LibInDimLayout
import proofs.«169237_j8847632630028_1_alg».proof.Proof.LibInDimRow
import proofs.«169237_j8847632630028_1_alg».proof.Proof.LibInnerProducts
import Idealize.ShloMosaic.Lib.ValueLayout
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-- The gate as a number: the comparison's bit read unsigned. -/
def gateBit (k : BitVec 32) (w : BitVec 32) : EReal := FloatOps.uitofp (F := Ideal) .f32 (IntOp.cmpi .eq w k)

/-- The gate column at row n. -/
theorem gate_apply (k : BitVec 32) (e : IVec S4096 32) (n : Fin 4096) (u : Fin 1) :
    gate (F := Ideal) k e (ix2 n u) = gateBit k (e (ix1 n)) := by
  unfold gate gateBit
  refine (Cert.LibInDimLayout.inDim_a_a1_apply _ _ n u).trans ?_
  show FloatOps.uitofp (F := Ideal) .f32 (IntOp.cmpi .eq (e (ix1 n)) (broadcastInDim S4096 ![] bcast_S_S4096 (constantI S_ 32 k) (ix1 n))) = _
  rw [broadcastInDim_apply (![] : Fin 0 → Fin S4096.rank) bcast_S_S4096 (constantI S_ 32 k) (ix1 n) ix0 (fun a => a.elim0)]
  rfl

/-- Expert s's matrix, cut out of the stack of matrices, at (0, kk, d). -/
theorem matrix_slice_apply {α : Type} (s : ℕ) (hs : s < 8) (hs3 : S8x2048x4096.Slices ![s, 0, 0] S1x2048x4096)
    (a3 : S8x2048x4096.Idx → α) (u : Fin 1) (kk : Fin 2048) (d : Fin 4096) :
    extractStridedSlice S1x2048x4096 ![s, 0, 0] a3 hs3 (ix3 u kk d) = a3 (ix3 (⟨s, hs⟩ : Fin 8) kk d) := by
  refine extractStridedSlice_apply _ a3 hs3 (ix3 u kk d) (ix3 (⟨s, hs⟩ : Fin 8) kk d) fun ax => ?_
  have hu : u.val = 0 := by omega
  match ax with
  | ⟨0, _⟩ => show s = s + u.val; omega
  | ⟨1, _⟩ => show kk.val = 0 + kk.val; omega
  | ⟨2, _⟩ => show d.val = 0 + d.val; omega

/-- Expert s's bias row, cut out of the stack of rows, at (0, d). -/
theorem row_slice_apply {α : Type} (s : ℕ) (hs : s < 8) (hs2 : S8x4096.Slices ![s, 0] S1x4096)
    (a4 : S8x4096.Idx → α) (u : Fin 1) (d : Fin 4096) :
    extractStridedSlice S1x4096 ![s, 0] a4 hs2 (ix2 u d) = a4 (ix2 (⟨s, hs⟩ : Fin 8) d) := by
  refine extractStridedSlice_apply _ a4 hs2 (ix2 u d) (ix2 (⟨s, hs⟩ : Fin 8) d) fun ax => ?_
  have hu : u.val = 0 := by omega
  match ax with
  | ⟨0, _⟩ => show s = s + u.val; omega
  | ⟨1, _⟩ => show d.val = 0 + d.val; omega

/-- One expert's term at (n, d). -/
theorem expertTerm_apply (k : BitVec 32) (s : ℕ) (hs : s < 8) (hs3 : S8x2048x4096.Slices ![s, 0, 0] S1x2048x4096)
    (hs2 : S8x4096.Slices ![s, 0] S1x4096) (e : IVec S4096 32) (h : FVec Ideal S4096x2048 .f32)
    (a3 : FVec Ideal S8x2048x4096 .f32) (a4 : FVec Ideal S8x4096 .f32) (n d : Fin 4096) :
    expertTerm (F := Ideal) k ![s, 0, 0] hs3 ![s, 0] hs2 e h a3 a4 (ix2 n d)
      = Switch.gatedLeft (gateBit k (e (ix1 n))) (fun kk => h (ix2 n kk)) (fun kk => a3 (ix3 (⟨s, hs⟩ : Fin 8) kk d))
          (a4 (ix2 (⟨s, hs⟩ : Fin 8) d)) := by
  unfold expertTerm Switch.gatedLeft
  rw [mulf_apply, addf_apply, Cert.LibInDimLayout.inDim_a1_ab_apply, gate_apply,
    InnerProducts.dotGeneral_apply dot_S4096x2048_S2048x4096_S4096x4096_1_0_0_1_n_n rfl none,
    Cert.LibInDimRow.inDim_1b_ab_apply, Cert.LibInDimRow.inDim_b_1b_apply, shapeCast_1a_a_apply, row_slice_apply s hs]
  refine congrArg (fun x => gateBit k (e (ix1 n)) * (x + a4 (ix2 (⟨s, hs⟩ : Fin 8) d))) (Finset.sum_congr rfl fun kk _ => ?_)
  rw [mulf_apply, Cert.LibInDimLayout.inDim_a1_ab_apply, gate_apply, shapeCast_1ab_ab_apply, matrix_slice_apply s hs]

/-- The zero array the sum starts from, at any entry. -/
theorem zeros_apply (j : S4096x4096.Idx) :
    broadcastInDim S4096x4096 ![] bcast_S_S4096x4096 (constant (F := Ideal) S_ .f32 0x00000000#32) j = 0 := by
  rw [broadcastInDim_apply (![] : Fin 0 → Fin S4096x4096.rank) bcast_S_S4096x4096 _ j ix0 (fun a => a.elim0)]
  exact Ideal.ofBits_zero_f32

/-- THE REFERENCE'S SUM at (n, d): zero plus the eight experts' terms, in the experts' order. -/
theorem sumOfExperts_apply (e : IVec S4096 32) (h : FVec Ideal S4096x2048 .f32) (a3 : FVec Ideal S8x2048x4096 .f32)
    (a4 : FVec Ideal S8x4096 .f32) (n d : Fin 4096) :
    sumOfExperts (F := Ideal) e h a3 a4 (ix2 n d)
      = 0 + Switch.gatedLeft (gateBit 0#32 (e (ix1 n))) (fun kk => h (ix2 n kk)) (fun kk => a3 (ix3 (⟨0, by decide⟩ : Fin 8) kk d)) (a4 (ix2 (⟨0, by decide⟩ : Fin 8) d))
          + Switch.gatedLeft (gateBit 1#32 (e (ix1 n))) (fun kk => h (ix2 n kk)) (fun kk => a3 (ix3 (⟨1, by decide⟩ : Fin 8) kk d)) (a4 (ix2 (⟨1, by decide⟩ : Fin 8) d))
          + Switch.gatedLeft (gateBit 2#32 (e (ix1 n))) (fun kk => h (ix2 n kk)) (fun kk => a3 (ix3 (⟨2, by decide⟩ : Fin 8) kk d)) (a4 (ix2 (⟨2, by decide⟩ : Fin 8) d))
          + Switch.gatedLeft (gateBit 3#32 (e (ix1 n))) (fun kk => h (ix2 n kk)) (fun kk => a3 (ix3 (⟨3, by decide⟩ : Fin 8) kk d)) (a4 (ix2 (⟨3, by decide⟩ : Fin 8) d))
          + Switch.gatedLeft (gateBit 4#32 (e (ix1 n))) (fun kk => h (ix2 n kk)) (fun kk => a3 (ix3 (⟨4, by decide⟩ : Fin 8) kk d)) (a4 (ix2 (⟨4, by decide⟩ : Fin 8) d))
          + Switch.gatedLeft (gateBit 5#32 (e (ix1 n))) (fun kk => h (ix2 n kk)) (fun kk => a3 (ix3 (⟨5, by decide⟩ : Fin 8) kk d)) (a4 (ix2 (⟨5, by decide⟩ : Fin 8) d))
          + Switch.gatedLeft (gateBit 6#32 (e (ix1 n))) (fun kk => h (ix2 n kk)) (fun kk => a3 (ix3 (⟨6, by decide⟩ : Fin 8) kk d)) (a4 (ix2 (⟨6, by decide⟩ : Fin 8) d))
          + Switch.gatedLeft (gateBit 7#32 (e (ix1 n))) (fun kk => h (ix2 n kk)) (fun kk => a3 (ix3 (⟨7, by decide⟩ : Fin 8) kk d)) (a4 (ix2 (⟨7, by decide⟩ : Fin 8) d)) := by
  unfold sumOfExperts
  simp only [addf_apply]
  rw [zeros_apply, expertTerm_apply 0#32 0 (by decide), expertTerm_apply 1#32 1 (by decide), expertTerm_apply 2#32 2 (by decide),
    expertTerm_apply 3#32 3 (by decide), expertTerm_apply 4#32 4 (by decide), expertTerm_apply 5#32 5 (by decide),
    expertTerm_apply 6#32 6 (by decide), expertTerm_apply 7#32 7 (by decide)]

end Cert.ReferenceIdeal.RefValue

end
-- ==== Proof.RefGather.lean ====
/-
  The reference's two table look-ups, read at an index.

  Each of the two gathers picks, for row n of the result, a row of a table: the start index of row n names the
  table's row (read as a signed integer and clamped so that the one-row slice fits), every other operand axis of
  extent one is read at 0, and the result's column kk is the offset along the table's last axis.  So when the start
  index's first component, as a signed integer, is a row number r of the table, the result at (n, kk) is the table
  at row r, column kk.
-/
import proofs.«169237_j8847632630028_1_alg».proof.Proof.RefTerms
import Idealize.ShloMosaic.Lib.Pipeline.Value
import Idealize.ShloMosaic.Lib.ValueIdx

namespace Cert.ReferenceIdeal.RefValue

open Cert.ReferenceIdeal Cert.ReferenceIdeal.Gen Idealize.ShloMosaic Idealize.ShloMosaic.ValueIdx

variable {α : Type}

/-- The first table [8, 1, 2048] gathered at start indices [4096, 2]: operand axis 0 reads the start index's component 0
    clamped into [0, 7], axis 1 (extent one) its component 1 clamped into [0, 0], axis 2 the offset coordinate. -/
theorem gather_table1_row (a1 : S8x1x2048.Idx → α) (idx : IVec S4096x2 32) (n : Fin 4096) (kk : Fin 2048) (r : Fin 8)
    (h0 : (idx (ix2 n (0 : Fin 2))).toInt.toNat = r.val) :
    Host.gather gather_S8x1x2048_S4096x2_S4096x2048_1_01_n_n_01_1_112048 a1 idx (ix2 n kk) = a1 (ix3 r (0 : Fin 1) kk) := by
  unfold Host.gather
  congr 1
  funext a
  refine Fin.ext ?_
  match a with
  | ⟨0, _⟩ =>
    show gather_S8x1x2048_S4096x2_S4096x2048_1_01_n_n_01_1_112048.start (ix2 n kk) idx 0
      + gather_S8x1x2048_S4096x2_S4096x2048_1_01_n_n_01_1_112048.batchCoord (ix2 n kk) 0
      + gather_S8x1x2048_S4096x2_S4096x2048_1_01_n_n_01_1_112048.offCoord (ix2 n kk) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S8x1x2048_S4096x2_S4096x2048_1_01_n_n_01_1_112048.startIndexMap by decide)]
    have hsi : gather_S8x1x2048_S4096x2_S4096x2048_1_01_n_n_01_1_112048.siIdx (ix2 n kk)
        ⟨List.idxOf (0 : Fin 3) gather_S8x1x2048_S4096x2_S4096x2048_1_01_n_n_01_1_112048.startIndexMap,
          List.idxOf_lt_length_iff.2 (by decide)⟩ = ix2 n (0 : Fin 2) := by
      funext b; refine Fin.ext ?_
      match b with
      | ⟨0, _⟩ => rfl
      | ⟨1, _⟩ => rfl
    rw [hsi, h0]
    show min r.val (8 - 1) = r.val
    have := r.isLt; omega
  | ⟨1, _⟩ =>
    show gather_S8x1x2048_S4096x2_S4096x2048_1_01_n_n_01_1_112048.start (ix2 n kk) idx 1
      + gather_S8x1x2048_S4096x2_S4096x2048_1_01_n_n_01_1_112048.batchCoord (ix2 n kk) 1
      + gather_S8x1x2048_S4096x2_S4096x2048_1_01_n_n_01_1_112048.offCoord (ix2 n kk) 1 = 0
    rw [GatherDims.batchCoord_eq_zero _ _ _ List.not_mem_nil,
      GatherDims.offCoord_eq_zero _ _ _ (fun h => ((GatherDims.mem_sKept _ _).mp h).1 (by decide))]
    simp only [Nat.add_zero]
    have := GatherDims.start_le gather_S8x1x2048_S4096x2_S4096x2048_1_01_n_n_01_1_112048 (ix2 n kk) idx 1
    have h1 : S8x1x2048.size 1 - gather_S8x1x2048_S4096x2_S4096x2048_1_01_n_n_01_1_112048.sliceSizes 1 = 0 := rfl
    omega
  | ⟨2, _⟩ =>
    show gather_S8x1x2048_S4096x2_S4096x2048_1_01_n_n_01_1_112048.start (ix2 n kk) idx 2
      + gather_S8x1x2048_S4096x2_S4096x2048_1_01_n_n_01_1_112048.batchCoord (ix2 n kk) 2
      + gather_S8x1x2048_S4096x2_S4096x2048_1_01_n_n_01_1_112048.offCoord (ix2 n kk) 2 = kk.val
    rw [GatherDims.batchCoord_eq_zero _ _ _ List.not_mem_nil]
    have hs : gather_S8x1x2048_S4096x2_S4096x2048_1_01_n_n_01_1_112048.start (ix2 n kk) idx 2 = 0 := by
      unfold GatherDims.start
      rw [dif_neg (show (2 : Fin 3) ∉ gather_S8x1x2048_S4096x2_S4096x2048_1_01_n_n_01_1_112048.startIndexMap by decide)]
    rw [hs]
    simp only [Nat.add_zero, Nat.zero_add]
    unfold GatherDims.offCoord
    rw [dif_pos (show (2 : Fin 3) ∈ gather_S8x1x2048_S4096x2_S4096x2048_1_01_n_n_01_1_112048.sKept by decide)]
    rfl

/-- The second table [8, 2048] gathered at start indices [4096, 1]: operand axis 0 reads the start index clamped into
    [0, 7], axis 1 the offset coordinate. -/
theorem gather_table2_row (a2 : S8x2048.Idx → α) (idx : IVec S4096x1 32) (n : Fin 4096) (kk : Fin 2048) (r : Fin 8)
    (h0 : (idx (ix2 n (0 : Fin 1))).toInt.toNat = r.val) :
    Host.gather gather_S8x2048_S4096x1_S4096x2048_1_0_n_n_0_1_12048 a2 idx (ix2 n kk) = a2 (ix2 r kk) := by
  unfold Host.gather
  congr 1
  funext a
  refine Fin.ext ?_
  match a with
  | ⟨0, _⟩ =>
    show gather_S8x2048_S4096x1_S4096x2048_1_0_n_n_0_1_12048.start (ix2 n kk) idx 0
      + gather_S8x2048_S4096x1_S4096x2048_1_0_n_n_0_1_12048.batchCoord (ix2 n kk) 0
      + gather_S8x2048_S4096x1_S4096x2048_1_0_n_n_0_1_12048.offCoord (ix2 n kk) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8x2048_S4096x1_S4096x2048_1_0_n_n_0_1_12048.startIndexMap by decide)]
    have hsi : gather_S8x2048_S4096x1_S4096x2048_1_0_n_n_0_1_12048.siIdx (ix2 n kk)
        ⟨List.idxOf (0 : Fin 2) gather_S8x2048_S4096x1_S4096x2048_1_0_n_n_0_1_12048.startIndexMap,
          List.idxOf_lt_length_iff.2 (by decide)⟩ = ix2 n (0 : Fin 1) := by
      funext b; refine Fin.ext ?_
      match b with
      | ⟨0, _⟩ => rfl
      | ⟨1, _⟩ => rfl
    rw [hsi, h0]
    show min r.val (8 - 1) = r.val
    have := r.isLt; omega
  | ⟨1, _⟩ =>
    show gather_S8x2048_S4096x1_S4096x2048_1_0_n_n_0_1_12048.start (ix2 n kk) idx 1
      + gather_S8x2048_S4096x1_S4096x2048_1_0_n_n_0_1_12048.batchCoord (ix2 n kk) 1
      + gather_S8x2048_S4096x1_S4096x2048_1_0_n_n_0_1_12048.offCoord (ix2 n kk) 1 = kk.val
    rw [GatherDims.batchCoord_eq_zero _ _ _ List.not_mem_nil]
    have hs : gather_S8x2048_S4096x1_S4096x2048_1_0_n_n_0_1_12048.start (ix2 n kk) idx 1 = 0 := by
      unfold GatherDims.start
      rw [dif_neg (show (1 : Fin 2) ∉ gather_S8x2048_S4096x1_S4096x2048_1_0_n_n_0_1_12048.startIndexMap by decide)]
    rw [hs]
    simp only [Nat.add_zero, Nat.zero_add]
    unfold GatherDims.offCoord
    rw [dif_pos (show (1 : Fin 2) ∈ gather_S8x2048_S4096x1_S4096x2048_1_0_n_n_0_1_12048.sKept by decide)]
    rfl

end Cert.ReferenceIdeal.RefValue
-- ==== Proof.RefHidden.lean ====
/-
  The reference's hidden vectors read at an index, for a row whose expert number is known.

  A row's expert number r lies in [0, 8).  It is not negative, so the index normalisation (a negative number counted
  from the end) keeps it; read as a signed integer it is r itself, so both table look-ups read row r.  The hidden
  vector of row n at column kk is therefore the positive part of (the row's position times the first table at
  (r, 0, kk), plus the second table at (r, kk)).
-/
import proofs.«169237_j8847632630028_1_alg».proof.Proof.RefGather
import proofs.«169237_j8847632630028_1_alg».proof.Proof.LibInDimLayout
import Idealize.ShloMosaic.PureOps.Ideal.Laws

namespace Cert.ReferenceIdeal.RefValue

open Cert.ReferenceIdeal Cert.ReferenceIdeal.Gen Idealize.ShloMosaic Idealize.ShloMosaic.ValueIdx

/-- A number in [0, 8), as a 32-bit word, is not below zero as a signed integer. -/
theorem not_slt_zero_of_lt_eight (r : Fin 8) : IntOp.cmpi .slt (BitVec.ofNat 32 r.val) 0#32 = 0#1 := by
  revert r; decide

/-- A number in [0, 8), as a 32-bit word read signed, is itself. -/
theorem toInt_toNat_of_lt_eight (r : Fin 8) : (BitVec.ofNat 32 r.val).toInt.toNat = r.val := by
  revert r; decide

/-- A scalar spread over the rows reads the scalar at every row. -/
theorem scalar_rows_apply (c : BitVec 32) (n : Fin 4096) :
    broadcastInDim S4096 ![] bcast_S_S4096 (constantI S_ 32 c) (ix1 n) = c :=
  broadcastInDim_apply _ bcast_S_S4096 (constantI S_ 32 c) (ix1 n) ix0 (fun a => a.elim0)

/-- The normalised expert number of row n (a negative number has 8 added) is r when the row's expert number is r in [0, 8). -/
theorem wrapped_expert_apply (e : IVec S4096 32) (n : Fin 4096) (r : Fin 8) (he : e (ix1 n) = BitVec.ofNat 32 r.val) :
    select (cmpi .slt e (broadcastInDim S4096 ![] bcast_S_S4096 (constantI S_ 32 0#32)))
      (addi e (broadcastInDim S4096 ![] bcast_S_S4096 (constantI S_ 32 8#32))) e (ix1 n) = BitVec.ofNat 32 r.val := by
  rw [select_apply]
  have hc : cmpi .slt e (broadcastInDim S4096 ![] bcast_S_S4096 (constantI S_ 32 0#32)) (ix1 n) = 0#1 := by
    show IntOp.cmpi .slt (e (ix1 n)) (broadcastInDim S4096 ![] bcast_S_S4096 (constantI S_ 32 0#32) (ix1 n)) = 0#1
    rw [he, scalar_rows_apply]
    exact not_slt_zero_of_lt_eight r
  rw [hc, select_zero, he]

/-- The normalised expert numbers as a column, read at (n, 0). -/
theorem wrapped_column_apply (e : IVec S4096 32) (n : Fin 4096) (r : Fin 8) (he : e (ix1 n) = BitVec.ofNat 32 r.val) :
    broadcastInDim S4096x1 ![0] bcast_S4096_S4096x1_0
      (select (cmpi .slt e (broadcastInDim S4096 ![] bcast_S_S4096 (constantI S_ 32 0#32)))
        (addi e (broadcastInDim S4096 ![] bcast_S_S4096 (constantI S_ 32 8#32))) e) (ix2 n (0 : Fin 1))
      = BitVec.ofNat 32 r.val :=
  (Cert.LibInDimLayout.inDim_a_a1_apply _ bcast_S4096_S4096x1_0 n (0 : Fin 1)).trans (wrapped_expert_apply e n r he)

/-- THE HIDDEN VECTOR OF A ROW WITH EXPERT r, at column kk: the positive part of position × first table's row r plus the
    second table's row r. -/
theorem hidden_apply_of_expert (e : IVec S4096 32) (pos : FVec Ideal S4096 .f32) (a1 : FVec Ideal S8x1x2048 .f32)
    (a2 : FVec Ideal S8x2048 .f32) (n : Fin 4096) (kk : Fin 2048) (r : Fin 8) (he : e (ix1 n) = BitVec.ofNat 32 r.val) :
    hidden (F := Ideal) e pos a1 a2 (ix2 n kk) = max (pos (ix1 n) * a1 (ix3 r (0 : Fin 1) kk) + a2 (ix2 r kk)) 0 := by
  unfold hidden
  rw [maximumf_apply, addf_apply, mulf_apply]
  -- the position, spread over the columns
  have hpos : broadcastInDim S4096x2048 ![0, 1] bcast_S4096x1_S4096x2048_0_1
      (broadcastInDim S4096x1 ![0] bcast_S4096_S4096x1_0 pos) (ix2 n kk) = pos (ix1 n) :=
    (Cert.LibInDimLayout.inDim_a1_ab_apply _ bcast_S4096x1_S4096x2048_0_1 n kk).trans
      (Cert.LibInDimLayout.inDim_a_a1_apply pos bcast_S4096_S4096x1_0 n (0 : Fin 1))
  -- the zero
  have hz : broadcastInDim S4096x2048 ![] bcast_S_S4096x2048 (constant (F := Ideal) S_ .f32 0x00000000#32) (ix2 n kk) = 0 :=
    (broadcastInDim_apply _ bcast_S_S4096x2048 (constant (F := Ideal) S_ .f32 0x00000000#32) (ix2 n kk) ix0 (fun a => a.elim0)).trans
      Ideal.ofBits_zero_f32
  -- the first table's start index (n, 0): the first piece of the two-column concatenation
  have hcat : concatenate S4096x2 1
      [⟨S4096x1, broadcastInDim S4096x1 ![0] bcast_S4096_S4096x1_0 (select (cmpi .slt e (broadcastInDim S4096 ![] bcast_S_S4096 (constantI S_ 32 0#32))) (addi e (broadcastInDim S4096 ![] bcast_S_S4096 (constantI S_ 32 8#32))) e)⟩,
       ⟨S4096x1, broadcastInDim S4096x1 ![0] bcast_S4096_S4096x1_0 (broadcastInDim S4096 ![] bcast_S_S4096 (constantI S_ 32 0#32))⟩]
      concatenates_S4096x1_S4096x1_S4096x2_d1 (ix2 n (0 : Fin 2)) = BitVec.ofNat 32 r.val := by
    refine Eq.trans (concatenate_pair_apply_left (t := S4096x2) (s₁ := S4096x1) (s₂ := S4096x1) (1 : Fin 2) _ _
      concatenates_S4096x1_S4096x1_S4096x2_d1 (ix2 n (0 : Fin 2)) (rfl : S4096x1.rank = S4096x2.rank)
      (ix2 n (0 : Fin 1)) (fun b => ?_)) (wrapped_column_apply e n r he)
    match b with
    | ⟨0, _⟩ => rfl
    | ⟨1, _⟩ => rfl
  rw [hpos, hz,
    gather_table1_row a1 _ n kk r (by rw [hcat]; exact toInt_toNat_of_lt_eight r),
    gather_table2_row a2 _ n kk r (by rw [wrapped_column_apply e n r he]; exact toInt_toNat_of_lt_eight r)]

end Cert.ReferenceIdeal.RefValue
-- ==== Proof.Bridge.lean ====
/-
  The two programs compute the same array.

  Entry (n, d) of the kernel's output is zero plus the eight experts' contributions in the kernel's spelling; entry
  (n, d) of the reference's output is zero plus the eight experts' terms in the reference's spelling, added in the same
  order. Expert by expert the two are equal: the gates are the same number, one or zero; where the gate is one the row's
  expert is that expert, so the reference's hidden row (built from the row's own expert's tables) is the kernel's
  (built from that expert's tables); where the gate is zero both are products with zero.
-/
import proofs.«169237_j8847632630028_1_alg».proof.Proof.KernelValue
import proofs.«169237_j8847632630028_1_alg».proof.Proof.RefRead
import proofs.«169237_j8847632630028_1_alg».proof.Proof.RefHidden
import Idealize.ShloMosaic.Lib.Affine

noncomputable section

namespace Cert.Bridge

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ)

/-- Expert s's contribution to entry (n, d), in the kernel's spelling, is the reference's term for expert s. -/
theorem term_eq (c : Dev nD) (n d : Fin 4096) (s : ℕ) (hs : s < 8) :
    Cert.KernelIdeal.Out.contribution m c n d ⟨s, hs⟩
      = Switch.gatedLeft
          (Cert.ReferenceIdeal.RefValue.gateBit (BitVec.ofNat 32 s)
            (Switch.expertOf (F := Ideal) (m ((c : Thread nD τ).loc main_arg0)) (m ((c : Thread nD τ).loc main_arg5)) (ix1 n)))
          (fun kk => Cert.ReferenceIdeal.RefValue.hidden (F := Ideal)
            (Switch.expertOf (F := Ideal) (m ((c : Thread nD τ).loc main_arg0)) (m ((c : Thread nD τ).loc main_arg5)))
            (Switch.positionOf (F := Ideal) (m ((c : Thread nD τ).loc main_arg0)) (m ((c : Thread nD τ).loc main_arg5)))
            (m ((c : Thread nD τ).loc main_arg1)) (m ((c : Thread nD τ).loc main_arg2)) (ix2 n kk))
          (fun kk => m ((c : Thread nD τ).loc main_arg3) (ix3 (⟨s, hs⟩ : Fin 8) kk d))
          (m ((c : Thread nD τ).loc main_arg4) (ix2 (⟨s, hs⟩ : Fin 8) d)) := by
  unfold Cert.KernelIdeal.Out.contribution Cert.KernelIdeal.Out.gateOf Cert.KernelIdeal.Payload.gateWord
    Cert.ReferenceIdeal.RefValue.gateBit
  obtain ⟨h1, h2⟩ := Switch.gate_bit (IntOp.cmpi .eq
    (Switch.expertOf (F := Ideal) (m ((c : Thread nD τ).loc main_arg0)) (m ((c : Thread nD τ).loc main_arg5)) (ix1 n)) (BitVec.ofNat 32 s))
  rw [h1]
  refine Switch.gatedRight_eq_gatedLeft _ _ _ _ _ ?_
  rcases h2 with ⟨hb, hv⟩ | ⟨hb, hv⟩
  · refine Or.inr ⟨hv, funext fun kk => ?_⟩
    have he := IntOp.cmpi_eq.mp hb
    exact (Cert.ReferenceIdeal.RefValue.hidden_apply_of_expert _ _ _ _ n kk ⟨s, hs⟩ he).symm
  · exact Or.inl hv

/-- THE BRIDGE: the kernel's output array is the reference's function of the same arguments. -/
theorem out_eq (c : Dev nD) :
    (Cert.KernelIdeal.Value.G6 m c : S4096x4096.Idx → EReal)
      = Cert.ReferenceIdeal.RefValue.refOut (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext j
  obtain ⟨n, d, rfl⟩ : ∃ (n : Fin 4096) (d : Fin 4096), j = ix2 n d := ⟨j 0, j 1, eq_ix2 j⟩
  rw [Cert.KernelIdeal.Out.out_apply, Cert.ReferenceIdeal.RefValue.refOut, Cert.ReferenceIdeal.RefValue.sumOfExperts_apply,
    term_eq m c n d 0 (by decide), term_eq m c n d 1 (by decide), term_eq m c n d 2 (by decide), term_eq m c n d 3 (by decide),
    term_eq m c n d 4 (by decide), term_eq m c n d 5 (by decide), term_eq m c n d 6 (by decide), term_eq m c n d 7 (by decide)]

end Cert.Bridge

end
-- ==== Proof.RefOps.lean ====
/-
  The reference's @main as a list of its 215 host operations, in ten consecutive stretches: the prefix that computes the
  expert and the position of every row (the two integer functions' bodies written out over the buffers of their calls),
  the hidden vectors, and one stretch per expert. With each stretch: that its operations touch TensorCore references
  only, that none leaves its result undetermined, and the list of the buffers it writes.
-/
import proofs.«169237_j8847632630028_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- A property of every element of two lists holds of every element of their concatenation. -/
theorem forall_append' {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- An operation whose only written buffer is `y`'s writes inside any list of references that holds `y`. -/
theorem wsub_of_mem {τ : Topo} {sig : RefSig} {W : List (Ref sig .tc)} {y : Ref sig .tc} {s : Finset (DevRef τ sig)}
    (hs : s = {Proc.devRef .tc y}) (h : y ∈ W) : s ⊆ (W.map (Proc.devRef (τ := τ) .tc)).toFinset := by
  subst hs
  exact Finset.singleton_subset_iff.mpr (List.mem_toFinset.mpr (List.mem_map.mpr ⟨y, h, rfl⟩))

/-- The contents after two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a typed reference's own buffer type and back are the contents. -/
theorem ofBuf_toBuf {sig : RefSig} {Val : EltTy → Type} {T : BufTy} (x : TRef sig T) (v : T.Contents Val) :
    x.ofBuf (x.toBuf v) = v := by
  rcases x with ⟨r, h, hd, hu⟩
  subst h
  rfl

variable {F : FTy → Type} [FloatOps F]

/-- The reference's statements %0 … %4: the column read as integers, then the floor quotient's sixteen operations and the remainder's twenty (each function's body over the buffers of its one call), then the remainder as a float. -/
abbrev opsA : List (HloOp τ sig (Elt F)) :=
  [ StableHlo.reshape main_arg0 main_v0 rfl shapeCasts_S4096x1_S4096,
    StableHlo.unary main_v0 main_v1 (fptosi 32 : (⟨S4096, .f32⟩ : BufTy).Contents (Elt F) → (⟨S4096, .i32⟩ : BufTy).Contents (Elt F)),
    StableHlo.TRef.unary (.of main_arg5 : StableHlo.TRef sig ⟨S_, .i32⟩) main_call0.v0 (broadcastInDim S4096 ![] bcast_S_S4096),
    StableHlo.TRef.binary (.of main_v1 : StableHlo.TRef sig ⟨S4096, .i32⟩) main_call0.v0 main_call0.v1 Host.divsi,
    StableHlo.TRef.unary (.of main_v1 : StableHlo.TRef sig ⟨S4096, .i32⟩) main_call0.v2 signi,
    StableHlo.TRef.unary (.of main_arg5 : StableHlo.TRef sig ⟨S_, .i32⟩) main_call0.v3 signi,
    StableHlo.TRef.unary main_call0.v3 main_call0.v4 (broadcastInDim S4096 ![] bcast_S_S4096),
    StableHlo.TRef.binary main_call0.v2 main_call0.v4 main_call0.v5 (cmpi .ne),
    StableHlo.TRef.unary (.of main_arg5 : StableHlo.TRef sig ⟨S_, .i32⟩) main_call0.v6 (broadcastInDim S4096 ![] bcast_S_S4096),
    StableHlo.TRef.binary (.of main_v1 : StableHlo.TRef sig ⟨S4096, .i32⟩) main_call0.v6 main_call0.v7 Host.remsi,
    StableHlo.TRef.nullary main_call0.c (constantI S_ 32 0#32),
    StableHlo.TRef.unary main_call0.c main_call0.v8 (broadcastInDim S4096 ![] bcast_S_S4096),
    StableHlo.TRef.binary main_call0.v7 main_call0.v8 main_call0.v9 (cmpi .ne),
    StableHlo.TRef.binary main_call0.v5 main_call0.v9 main_call0.v10 andi,
    StableHlo.TRef.nullary main_call0.c_0 (constantI S_ 32 1#32),
    StableHlo.TRef.unary main_call0.c_0 main_call0.v11 (broadcastInDim S4096 ![] bcast_S_S4096),
    StableHlo.TRef.binary main_call0.v1 main_call0.v11 main_call0.v12 subi,
    StableHlo.TRef.ternary main_call0.v10 main_call0.v12 main_call0.v1 main_call0.call0.v0 select,
    StableHlo.TRef.nullary main_call1.c (constantI S_ 32 0#32),
    StableHlo.TRef.binary (.of main_arg5 : StableHlo.TRef sig ⟨S_, .i32⟩) main_call1.c main_call1.v0 (cmpi .eq),
    StableHlo.TRef.nullary main_call1.c_0 (constantI S_ 32 1#32),
    StableHlo.TRef.ternary main_call1.v0 main_call1.c_0 (.of main_arg5 : StableHlo.TRef sig ⟨S_, .i32⟩) main_call1.call0.v0 select,
    StableHlo.TRef.unary main_call1.call0.v0 main_call1.v2 (broadcastInDim S4096 ![] bcast_S_S4096),
    StableHlo.TRef.binary (.of main_v1 : StableHlo.TRef sig ⟨S4096, .i32⟩) main_call1.v2 main_call1.v3 Host.remsi,
    StableHlo.TRef.nullary main_call1.c_1 (constantI S_ 32 0#32),
    StableHlo.TRef.unary main_call1.c_1 main_call1.v4 (broadcastInDim S4096 ![] bcast_S_S4096),
    StableHlo.TRef.binary main_call1.v3 main_call1.v4 main_call1.v5 (cmpi .ne),
    StableHlo.TRef.nullary main_call1.c_2 (constantI S_ 32 0#32),
    StableHlo.TRef.unary main_call1.c_2 main_call1.v6 (broadcastInDim S4096 ![] bcast_S_S4096),
    StableHlo.TRef.binary main_call1.v3 main_call1.v6 main_call1.v7 (cmpi .slt),
    StableHlo.TRef.nullary main_call1.c_3 (constantI S_ 32 0#32),
    StableHlo.TRef.binary main_call1.call0.v0 main_call1.c_3 main_call1.v8 (cmpi .slt),
    StableHlo.TRef.unary main_call1.v8 main_call1.v9 (broadcastInDim S4096 ![] bcast_S_S4096),
    StableHlo.TRef.binary main_call1.v7 main_call1.v9 main_call1.v10 (cmpi .ne),
    StableHlo.TRef.binary main_call1.v10 main_call1.v5 main_call1.v11 andi,
    StableHlo.TRef.unary main_call1.call0.v0 main_call1.v12 (broadcastInDim S4096 ![] bcast_S_S4096),
    StableHlo.TRef.binary main_call1.v3 main_call1.v12 main_call1.v13 addi,
    StableHlo.TRef.ternary main_call1.v11 main_call1.v13 main_call1.v3 main_call1.v14 select,
    StableHlo.unary main_v3 main_v4 (sitofp .f32 : (⟨S4096, .i32⟩ : BufTy).Contents (Elt F) → (⟨S4096, .f32⟩ : BufTy).Contents (Elt F)) ]
/-- The buffers those operations write, in order. -/
abbrev wrA : List (Ref sig .tc) :=
  [ main_v0, main_v1, main_call0.v0.ref, main_call0.v1.ref, main_call0.v2.ref, main_call0.v3.ref, main_call0.v4.ref, main_call0.v5.ref, main_call0.v6.ref, main_call0.v7.ref, main_call0.c.ref, main_call0.v8.ref, main_call0.v9.ref, main_call0.v10.ref, main_call0.c_0.ref, main_call0.v11.ref, main_call0.v12.ref, main_call0.call0.v0.ref, main_call1.c.ref, main_call1.v0.ref, main_call1.c_0.ref, main_call1.call0.v0.ref, main_call1.v2.ref, main_call1.v3.ref, main_call1.c_1.ref, main_call1.v4.ref, main_call1.v5.ref, main_call1.c_2.ref, main_call1.v6.ref, main_call1.v7.ref, main_call1.c_3.ref, main_call1.v8.ref, main_call1.v9.ref, main_call1.v10.ref, main_call1.v11.ref, main_call1.v12.ref, main_call1.v13.ref, main_call1.v14.ref, main_v4 ]
theorem opsA_sub : (opsA : List (HloOp τ sig (Elt F))).Forall fun op => op.bufs ⊆ tcRefs τ sig :=
  ⟨reshape_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsA_wr : (opsA : List (HloOp τ sig (Elt F))).Forall fun op => op.writes ⊆ (wrA.map (Proc.devRef (τ := τ) .tc)).toFinset :=
  ⟨wsub_of_mem (y := main_v0) rfl (by decide),
   wsub_of_mem (y := main_v1) rfl (by decide),
   wsub_of_mem (y := main_call0.v0.ref) rfl (by decide),
   wsub_of_mem (y := main_call0.v1.ref) rfl (by decide),
   wsub_of_mem (y := main_call0.v2.ref) rfl (by decide),
   wsub_of_mem (y := main_call0.v3.ref) rfl (by decide),
   wsub_of_mem (y := main_call0.v4.ref) rfl (by decide),
   wsub_of_mem (y := main_call0.v5.ref) rfl (by decide),
   wsub_of_mem (y := main_call0.v6.ref) rfl (by decide),
   wsub_of_mem (y := main_call0.v7.ref) rfl (by decide),
   wsub_of_mem (y := main_call0.c.ref) rfl (by decide),
   wsub_of_mem (y := main_call0.v8.ref) rfl (by decide),
   wsub_of_mem (y := main_call0.v9.ref) rfl (by decide),
   wsub_of_mem (y := main_call0.v10.ref) rfl (by decide),
   wsub_of_mem (y := main_call0.c_0.ref) rfl (by decide),
   wsub_of_mem (y := main_call0.v11.ref) rfl (by decide),
   wsub_of_mem (y := main_call0.v12.ref) rfl (by decide),
   wsub_of_mem (y := main_call0.call0.v0.ref) rfl (by decide),
   wsub_of_mem (y := main_call1.c.ref) rfl (by decide),
   wsub_of_mem (y := main_call1.v0.ref) rfl (by decide),
   wsub_of_mem (y := main_call1.c_0.ref) rfl (by decide),
   wsub_of_mem (y := main_call1.call0.v0.ref) rfl (by decide),
   wsub_of_mem (y := main_call1.v2.ref) rfl (by decide),
   wsub_of_mem (y := main_call1.v3.ref) rfl (by decide),
   wsub_of_mem (y := main_call1.c_1.ref) rfl (by decide),
   wsub_of_mem (y := main_call1.v4.ref) rfl (by decide),
   wsub_of_mem (y := main_call1.v5.ref) rfl (by decide),
   wsub_of_mem (y := main_call1.c_2.ref) rfl (by decide),
   wsub_of_mem (y := main_call1.v6.ref) rfl (by decide),
   wsub_of_mem (y := main_call1.v7.ref) rfl (by decide),
   wsub_of_mem (y := main_call1.c_3.ref) rfl (by decide),
   wsub_of_mem (y := main_call1.v8.ref) rfl (by decide),
   wsub_of_mem (y := main_call1.v9.ref) rfl (by decide),
   wsub_of_mem (y := main_call1.v10.ref) rfl (by decide),
   wsub_of_mem (y := main_call1.v11.ref) rfl (by decide),
   wsub_of_mem (y := main_call1.v12.ref) rfl (by decide),
   wsub_of_mem (y := main_call1.v13.ref) rfl (by decide),
   wsub_of_mem (y := main_call1.v14.ref) rfl (by decide),
   wsub_of_mem (y := main_v4) rfl (by decide)⟩

/-- The reference's statements %5 … %28: the two gathers with their index normalisation, the product and the sum, the positive part's three operations, and the zero the sum over the experts starts from. -/
abbrev opsB : List (HloOp τ sig (Elt F)) :=
  [ StableHlo.unary main_v4 main_v5 (broadcastInDim S4096x1 ![0] bcast_S4096_S4096x1_0 : (⟨S4096, .f32⟩ : BufTy).Contents (Elt F) → (⟨S4096x1, .f32⟩ : BufTy).Contents (Elt F)),
    StableHlo.nullary main_c (constantI S_ 32 0#32),
    StableHlo.unary main_c main_v6 (broadcastInDim S4096 ![] bcast_S_S4096 : (⟨S_, .i32⟩ : BufTy).Contents (Elt F) → (⟨S4096, .i32⟩ : BufTy).Contents (Elt F)),
    StableHlo.binary main_v2 main_v6 main_v7 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 8#32),
    StableHlo.unary main_c_0 main_v8 (broadcastInDim S4096 ![] bcast_S_S4096 : (⟨S_, .i32⟩ : BufTy).Contents (Elt F) → (⟨S4096, .i32⟩ : BufTy).Contents (Elt F)),
    StableHlo.binary main_v2 main_v8 main_v9 (addi : (⟨S4096, .i32⟩ : BufTy).Contents (Elt F) → (⟨S4096, .i32⟩ : BufTy).Contents (Elt F) → (⟨S4096, .i32⟩ : BufTy).Contents (Elt F)),
    StableHlo.ternary main_v7 main_v9 main_v2 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_1 (constantI S_ 32 0#32),
    StableHlo.unary main_c_1 main_v11 (broadcastInDim S4096 ![] bcast_S_S4096 : (⟨S_, .i32⟩ : BufTy).Contents (Elt F) → (⟨S4096, .i32⟩ : BufTy).Contents (Elt F)),
    StableHlo.unary main_v11 main_v12 (id : (⟨S4096, .i32⟩ : BufTy).Contents (Elt F) → (⟨S4096, .i32⟩ : BufTy).Contents (Elt F)),
    StableHlo.unary main_v10 main_v13 (broadcastInDim S4096x1 ![0] bcast_S4096_S4096x1_0 : (⟨S4096, .i32⟩ : BufTy).Contents (Elt F) → (⟨S4096x1, .i32⟩ : BufTy).Contents (Elt F)),
    StableHlo.unary main_v12 main_v14 (broadcastInDim S4096x1 ![0] bcast_S4096_S4096x1_0 : (⟨S4096, .i32⟩ : BufTy).Contents (Elt F) → (⟨S4096x1, .i32⟩ : BufTy).Contents (Elt F)),
    StableHlo.binary main_v13 main_v14 main_v15 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_arg1 main_v15 main_v16 ((fun x i => Host.gather gather_S8x1x2048_S4096x2_S4096x2048_1_01_n_n_01_1_112048 x i) : (⟨S8x1x2048, .f32⟩ : BufTy).Contents (Elt F) → (⟨S4096x2, .i32⟩ : BufTy).Contents (Elt F) → (⟨S4096x2048, .f32⟩ : BufTy).Contents (Elt F)),
    StableHlo.unary main_v5 main_v17 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v17 main_v16 main_v18 (mulf : (⟨S4096x2048, .f32⟩ : BufTy).Contents (Elt F) → (⟨S4096x2048, .f32⟩ : BufTy).Contents (Elt F) → (⟨S4096x2048, .f32⟩ : BufTy).Contents (Elt F)),
    StableHlo.nullary main_c_2 (constantI S_ 32 0#32),
    StableHlo.unary main_c_2 main_v19 (broadcastInDim S4096 ![] bcast_S_S4096 : (⟨S_, .i32⟩ : BufTy).Contents (Elt F) → (⟨S4096, .i32⟩ : BufTy).Contents (Elt F)),
    StableHlo.binary main_v2 main_v19 main_v20 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 8#32),
    StableHlo.unary main_c_3 main_v21 (broadcastInDim S4096 ![] bcast_S_S4096 : (⟨S_, .i32⟩ : BufTy).Contents (Elt F) → (⟨S4096, .i32⟩ : BufTy).Contents (Elt F)),
    StableHlo.binary main_v2 main_v21 main_v22 (addi : (⟨S4096, .i32⟩ : BufTy).Contents (Elt F) → (⟨S4096, .i32⟩ : BufTy).Contents (Elt F) → (⟨S4096, .i32⟩ : BufTy).Contents (Elt F)),
    StableHlo.ternary main_v20 main_v22 main_v2 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v23 main_v24 (broadcastInDim S4096x1 ![0] bcast_S4096_S4096x1_0 : (⟨S4096, .i32⟩ : BufTy).Contents (Elt F) → (⟨S4096x1, .i32⟩ : BufTy).Contents (Elt F)),
    StableHlo.binary main_arg2 main_v24 main_v25 ((fun x i => Host.gather gather_S8x2048_S4096x1_S4096x2048_1_0_n_n_0_1_12048 x i) : (⟨S8x2048, .f32⟩ : BufTy).Contents (Elt F) → (⟨S4096x1, .i32⟩ : BufTy).Contents (Elt F) → (⟨S4096x2048, .f32⟩ : BufTy).Contents (Elt F)),
    StableHlo.binary main_v18 main_v25 main_v26 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call2.cst (constant S_ .f32 0x00000000#32),
    StableHlo.TRef.unary main_call2.cst main_call2.v0 (broadcastInDim S4096x2048 ![] bcast_S_S4096x2048),
    StableHlo.TRef.binary (.of main_v26 : StableHlo.TRef sig ⟨S4096x2048, .f32⟩) main_call2.v0 main_call2.v1 maximumf,
    StableHlo.nullary main_cst (constant S_ .f32 0x00000000#32),
    StableHlo.unary main_cst main_v28 (broadcastInDim S4096x4096 ![] bcast_S_S4096x4096 : (⟨S_, .f32⟩ : BufTy).Contents (Elt F) → (⟨S4096x4096, .f32⟩ : BufTy).Contents (Elt F)) ]
/-- The buffers those operations write, in order. -/
abbrev wrB : List (Ref sig .tc) :=
  [ main_v5, main_c, main_v6, main_v7, main_c_0, main_v8, main_v9, main_v10, main_c_1, main_v11, main_v12, main_v13, main_v14, main_v15, main_v16, main_v17, main_v18, main_c_2, main_v19, main_v20, main_c_3, main_v21, main_v22, main_v23, main_v24, main_v25, main_v26, main_call2.cst.ref, main_call2.v0.ref, main_call2.v1.ref, main_cst, main_v28 ]
theorem opsB_sub : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsB_wr : (opsB : List (HloOp τ sig (Elt F))).Forall fun op => op.writes ⊆ (wrB.map (Proc.devRef (τ := τ) .tc)).toFinset :=
  ⟨wsub_of_mem (y := main_v5) rfl (by decide),
   wsub_of_mem (y := main_c) rfl (by decide),
   wsub_of_mem (y := main_v6) rfl (by decide),
   wsub_of_mem (y := main_v7) rfl (by decide),
   wsub_of_mem (y := main_c_0) rfl (by decide),
   wsub_of_mem (y := main_v8) rfl (by decide),
   wsub_of_mem (y := main_v9) rfl (by decide),
   wsub_of_mem (y := main_v10) rfl (by decide),
   wsub_of_mem (y := main_c_1) rfl (by decide),
   wsub_of_mem (y := main_v11) rfl (by decide),
   wsub_of_mem (y := main_v12) rfl (by decide),
   wsub_of_mem (y := main_v13) rfl (by decide),
   wsub_of_mem (y := main_v14) rfl (by decide),
   wsub_of_mem (y := main_v15) rfl (by decide),
   wsub_of_mem (y := main_v16) rfl (by decide),
   wsub_of_mem (y := main_v17) rfl (by decide),
   wsub_of_mem (y := main_v18) rfl (by decide),
   wsub_of_mem (y := main_c_2) rfl (by decide),
   wsub_of_mem (y := main_v19) rfl (by decide),
   wsub_of_mem (y := main_v20) rfl (by decide),
   wsub_of_mem (y := main_c_3) rfl (by decide),
   wsub_of_mem (y := main_v21) rfl (by decide),
   wsub_of_mem (y := main_v22) rfl (by decide),
   wsub_of_mem (y := main_v23) rfl (by decide),
   wsub_of_mem (y := main_v24) rfl (by decide),
   wsub_of_mem (y := main_v25) rfl (by decide),
   wsub_of_mem (y := main_v26) rfl (by decide),
   wsub_of_mem (y := main_call2.cst.ref) rfl (by decide),
   wsub_of_mem (y := main_call2.v0.ref) rfl (by decide),
   wsub_of_mem (y := main_call2.v1.ref) rfl (by decide),
   wsub_of_mem (y := main_cst) rfl (by decide),
   wsub_of_mem (y := main_v28) rfl (by decide)⟩

/-- Expert 0's eighteen operations: the gate, the gated hidden vectors times the expert's matrix plus its bias row, the gate again, and the running sum. -/
abbrev opsE0 : List (HloOp τ sig (Elt F)) :=
  [ StableHlo.nullary main_c_4 (constantI S_ 32 0#32),
    StableHlo.unary main_c_4 main_v29 (broadcastInDim S4096 ![] bcast_S_S4096 : (⟨S_, .i32⟩ : BufTy).Contents (Elt F) → (⟨S4096, .i32⟩ : BufTy).Contents (Elt F)),
    StableHlo.binary main_v2 main_v29 main_v30 (cmpi .eq : (⟨S4096, .i32⟩ : BufTy).Contents (Elt F) → (⟨S4096, .i32⟩ : BufTy).Contents (Elt F) → (⟨S4096, .i1⟩ : BufTy).Contents (Elt F)),
    StableHlo.unary main_v30 main_v31 (uitofp .f32 : (⟨S4096, .i1⟩ : BufTy).Contents (Elt F) → (⟨S4096, .f32⟩ : BufTy).Contents (Elt F)),
    StableHlo.unary main_v31 main_v32 (broadcastInDim S4096x1 ![0] bcast_S4096_S4096x1_0 : (⟨S4096, .f32⟩ : BufTy).Contents (Elt F) → (⟨S4096x1, .f32⟩ : BufTy).Contents (Elt F)),
    StableHlo.unary main_v32 main_v33 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v27 main_v33 main_v34 (mulf : (⟨S4096x2048, .f32⟩ : BufTy).Contents (Elt F) → (⟨S4096x2048, .f32⟩ : BufTy).Contents (Elt F) → (⟨S4096x2048, .f32⟩ : BufTy).Contents (Elt F)),
    StableHlo.unary main_arg3 main_v35 ((extractStridedSlice S1x2048x4096 ![0, 0, 0] · slices_S8x2048x4096_S1x2048x4096_0_0_0) : (⟨S8x2048x4096, .f32⟩ : BufTy).Contents (Elt F) → (⟨S1x2048x4096, .f32⟩ : BufTy).Contents (Elt F)),
    StableHlo.reshape main_v35 main_v36 rfl shapeCasts_S1x2048x4096_S2048x4096,
    StableHlo.binary main_v34 main_v36 main_v37 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_arg4 main_v38 ((extractStridedSlice S1x4096 ![0, 0] · slices_S8x4096_S1x4096_0_0) : (⟨S8x4096, .f32⟩ : BufTy).Contents (Elt F) → (⟨S1x4096, .f32⟩ : BufTy).Contents (Elt F)),
    StableHlo.reshape main_v38 main_v39 rfl shapeCasts_S1x4096_S4096,
    StableHlo.unary main_v39 main_v40 (broadcastInDim S1x4096 ![1] bcast_S4096_S1x4096_1 : (⟨S4096, .f32⟩ : BufTy).Contents (Elt F) → (⟨S1x4096, .f32⟩ : BufTy).Contents (Elt F)),
    StableHlo.unary main_v40 main_v41 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v37 main_v41 main_v42 (addf : (⟨S4096x4096, .f32⟩ : BufTy).Contents (Elt F) → (⟨S4096x4096, .f32⟩ : BufTy).Contents (Elt F) → (⟨S4096x4096, .f32⟩ : BufTy).Contents (Elt F)),
    StableHlo.unary main_v32 main_v43 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v43 main_v42 main_v44 (mulf : (⟨S4096x4096, .f32⟩ : BufTy).Contents (Elt F) → (⟨S4096x4096, .f32⟩ : BufTy).Contents (Elt F) → (⟨S4096x4096, .f32⟩ : BufTy).Contents (Elt F)),
    StableHlo.binary main_v28 main_v44 main_v45 (addf : (⟨S4096x4096, .f32⟩ : BufTy).Contents (Elt F) → (⟨S4096x4096, .f32⟩ : BufTy).Contents (Elt F) → (⟨S4096x4096, .f32⟩ : BufTy).Contents (Elt F)) ]
/-- The buffers those operations write, in order. -/
abbrev wrE0 : List (Ref sig .tc) :=
  [ main_c_4, main_v29, main_v30, main_v31, main_v32, main_v33, main_v34, main_v35, main_v36, main_v37, main_v38, main_v39, main_v40, main_v41, main_v42, main_v43, main_v44, main_v45 ]
theorem opsE0_sub : (opsE0 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub ..⟩
theorem opsE0_fresh : (opsE0 : List (HloOp τ sig (Elt F))).Forall fun op => op.fresh = ∅ :=
  ⟨rfl, rfl, rfl, rfl, rfl, rfl, rfl, rfl, rfl, rfl, rfl, rfl, rfl, rfl, rfl, rfl, rfl, rfl⟩
theorem opsE0_wr : (opsE0 : List (HloOp τ sig (Elt F))).Forall fun op => op.writes ⊆ (wrE0.map (Proc.devRef (τ := τ) .tc)).toFinset :=
  ⟨wsub_of_mem (y := main_c_4) rfl (by decide),
   wsub_of_mem (y := main_v29) rfl (by decide),
   wsub_of_mem (y := main_v30) rfl (by decide),
   wsub_of_mem (y := main_v31) rfl (by decide),
   wsub_of_mem (y := main_v32) rfl (by decide),
   wsub_of_mem (y := main_v33) rfl (by decide),
   wsub_of_mem (y := main_v34) rfl (by decide),
   wsub_of_mem (y := main_v35) rfl (by decide),
   wsub_of_mem (y := main_v36) rfl (by decide),
   wsub_of_mem (y := main_v37) rfl (by decide),
   wsub_of_mem (y := main_v38) rfl (by decide),
   wsub_of_mem (y := main_v39) rfl (by decide),
   wsub_of_mem (y := main_v40) rfl (by decide),
   wsub_of_mem (y := main_v41) rfl (by decide),
   wsub_of_mem (y := main_v42) rfl (by decide),
   wsub_of_mem (y := main_v43) rfl (by decide),
   wsub_of_mem (y := main_v44) rfl (by decide),
   wsub_of_mem (y := main_v45) rfl (by decide)⟩

/-- Expert 1's eighteen operations: the gate, the gated hidden vectors times the expert's matrix plus its bias row, the gate again, and the running sum. -/
abbrev opsE1 : List (HloOp τ sig (Elt F)) :=
  [ StableHlo.nullary main_c_5 (constantI S_ 32 1#32),
    StableHlo.unary main_c_5 main_v46 (broadcastInDim S4096 ![] bcast_S_S4096 : (⟨S_, .i32⟩ : BufTy).Contents (Elt F) → (⟨S4096, .i32⟩ : BufTy).Contents (Elt F)),
    StableHlo.binary main_v2 main_v46 main_v47 (cmpi .eq : (⟨S4096, .i32⟩ : BufTy).Contents (Elt F) → (⟨S4096, .i32⟩ : BufTy).Contents (Elt F) → (⟨S4096, .i1⟩ : BufTy).Contents (Elt F)),
    StableHlo.unary main_v47 main_v48 (uitofp .f32 : (⟨S4096, .i1⟩ : BufTy).Contents (Elt F) → (⟨S4096, .f32⟩ : BufTy).Contents (Elt F)),
    StableHlo.unary main_v48 main_v49 (broadcastInDim S4096x1 ![0] bcast_S4096_S4096x1_0 : (⟨S4096, .f32⟩ : BufTy).Contents (Elt F) → (⟨S4096x1, .f32⟩ : BufTy).Contents (Elt F)),
    StableHlo.unary main_v49 main_v50 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v27 main_v50 main_v51 (mulf : (⟨S4096x2048, .f32⟩ : BufTy).Contents (Elt F) → (⟨S4096x2048, .f32⟩ : BufTy).Contents (Elt F) → (⟨S4096x2048, .f32⟩ : BufTy).Contents (Elt F)),
    StableHlo.unary main_arg3 main_v52 ((extractStridedSlice S1x2048x4096 ![1, 0, 0] · slices_S8x2048x4096_S1x2048x4096_1_0_0) : (⟨S8x2048x4096, .f32⟩ : BufTy).Contents (Elt F) → (⟨S1x2048x4096, .f32⟩ : BufTy).Contents (Elt F)),
    StableHlo.reshape main_v52 main_v53 rfl shapeCasts_S1x2048x4096_S2048x4096,
    StableHlo.binary main_v51 main_v53 main_v54 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_arg4 main_v55 ((extractStridedSlice S1x4096 ![1, 0] · slices_S8x4096_S1x4096_1_0) : (⟨S8x4096, .f32⟩ : BufTy).Contents (Elt F) → (⟨S1x4096, .f32⟩ : BufTy).Contents (Elt F)),
    StableHlo.reshape main_v55 main_v56 rfl shapeCasts_S1x4096_S4096,
    StableHlo.unary main_v56 main_v57 (broadcastInDim S1x4096 ![1] bcast_S4096_S1x4096_1 : (⟨S4096, .f32⟩ : BufTy).Contents (Elt F) → (⟨S1x4096, .f32⟩ : BufTy).Contents (Elt F)),
    StableHlo.unary main_v57 main_v58 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v54 main_v58 main_v59 (addf : (⟨S4096x4096, .f32⟩ : BufTy).Contents (Elt F) → (⟨S4096x4096, .f32⟩ : BufTy).Contents (Elt F) → (⟨S4096x4096, .f32⟩ : BufTy).Contents (Elt F)),
    StableHlo.unary main_v49 main_v60 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v60 main_v59 main_v61 (mulf : (⟨S4096x4096, .f32⟩ : BufTy).Contents (Elt F) → (⟨S4096x4096, .f32⟩ : BufTy).Contents (Elt F) → (⟨S4096x4096, .f32⟩ : BufTy).Contents (Elt F)),
    StableHlo.binary main_v45 main_v61 main_v62 (addf : (⟨S4096x4096, .f32⟩ : BufTy).Contents (Elt F) → (⟨S4096x4096, .f32⟩ : BufTy).Contents (Elt F) → (⟨S4096x4096, .f32⟩ : BufTy).Contents (Elt F)) ]
/-- The buffers those operations write, in order. -/
abbrev wrE1 : List (Ref sig .tc) :=
  [ main_c_5, main_v46, main_v47, main_v48, main_v49, main_v50, main_v51, main_v52, main_v53, main_v54, main_v55, main_v56, main_v57, main_v58, main_v59, main_v60, main_v61, main_v62 ]
theorem opsE1_sub : (opsE1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub ..⟩
theorem opsE1_fresh : (opsE1 : List (HloOp τ sig (Elt F))).Forall fun op => op.fresh = ∅ :=
  ⟨rfl, rfl, rfl, rfl, rfl, rfl, rfl, rfl, rfl, rfl, rfl, rfl, rfl, rfl, rfl, rfl, rfl, rfl⟩
theorem opsE1_wr : (opsE1 : List (HloOp τ sig (Elt F))).Forall fun op => op.writes ⊆ (wrE1.map (Proc.devRef (τ := τ) .tc)).toFinset :=
  ⟨wsub_of_mem (y := main_c_5) rfl (by decide),
   wsub_of_mem (y := main_v46) rfl (by decide),
   wsub_of_mem (y := main_v47) rfl (by decide),
   wsub_of_mem (y := main_v48) rfl (by decide),
   wsub_of_mem (y := main_v49) rfl (by decide),
   wsub_of_mem (y := main_v50) rfl (by decide),
   wsub_of_mem (y := main_v51) rfl (by decide),
   wsub_of_mem (y := main_v52) rfl (by decide),
   wsub_of_mem (y := main_v53) rfl (by decide),
   wsub_of_mem (y := main_v54) rfl (by decide),
   wsub_of_mem (y := main_v55) rfl (by decide),
   wsub_of_mem (y := main_v56) rfl (by decide),
   wsub_of_mem (y := main_v57) rfl (by decide),
   wsub_of_mem (y := main_v58) rfl (by decide),
   wsub_of_mem (y := main_v59) rfl (by decide),
   wsub_of_mem (y := main_v60) rfl (by decide),
   wsub_of_mem (y := main_v61) rfl (by decide),
   wsub_of_mem (y := main_v62) rfl (by decide)⟩

/-- Expert 2's eighteen operations: the gate, the gated hidden vectors times the expert's matrix plus its bias row, the gate again, and the running sum. -/
abbrev opsE2 : List (HloOp τ sig (Elt F)) :=
  [ StableHlo.nullary main_c_6 (constantI S_ 32 2#32),
    StableHlo.unary main_c_6 main_v63 (broadcastInDim S4096 ![] bcast_S_S4096 : (⟨S_, .i32⟩ : BufTy).Contents (Elt F) → (⟨S4096, .i32⟩ : BufTy).Contents (Elt F)),
    StableHlo.binary main_v2 main_v63 main_v64 (cmpi .eq : (⟨S4096, .i32⟩ : BufTy).Contents (Elt F) → (⟨S4096, .i32⟩ : BufTy).Contents (Elt F) → (⟨S4096, .i1⟩ : BufTy).Contents (Elt F)),
    StableHlo.unary main_v64 main_v65 (uitofp .f32 : (⟨S4096, .i1⟩ : BufTy).Contents (Elt F) → (⟨S4096, .f32⟩ : BufTy).Contents (Elt F)),
    StableHlo.unary main_v65 main_v66 (broadcastInDim S4096x1 ![0] bcast_S4096_S4096x1_0 : (⟨S4096, .f32⟩ : BufTy).Contents (Elt F) → (⟨S4096x1, .f32⟩ : BufTy).Contents (Elt F)),
    StableHlo.unary main_v66 main_v67 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v27 main_v67 main_v68 (mulf : (⟨S4096x2048, .f32⟩ : BufTy).Contents (Elt F) → (⟨S4096x2048, .f32⟩ : BufTy).Contents (Elt F) → (⟨S4096x2048, .f32⟩ : BufTy).Contents (Elt F)),
    StableHlo.unary main_arg3 main_v69 ((extractStridedSlice S1x2048x4096 ![2, 0, 0] · slices_S8x2048x4096_S1x2048x4096_2_0_0) : (⟨S8x2048x4096, .f32⟩ : BufTy).Contents (Elt F) → (⟨S1x2048x4096, .f32⟩ : BufTy).Contents (Elt F)),
    StableHlo.reshape main_v69 main_v70 rfl shapeCasts_S1x2048x4096_S2048x4096,
    StableHlo.binary main_v68 main_v70 main_v71 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_arg4 main_v72 ((extractStridedSlice S1x4096 ![2, 0] · slices_S8x4096_S1x4096_2_0) : (⟨S8x4096, .f32⟩ : BufTy).Contents (Elt F) → (⟨S1x4096, .f32⟩ : BufTy).Contents (Elt F)),
    StableHlo.reshape main_v72 main_v73 rfl shapeCasts_S1x4096_S4096,
    StableHlo.unary main_v73 main_v74 (broadcastInDim S1x4096 ![1] bcast_S4096_S1x4096_1 : (⟨S4096, .f32⟩ : BufTy).Contents (Elt F) → (⟨S1x4096, .f32⟩ : BufTy).Contents (Elt F)),
    StableHlo.unary main_v74 main_v75 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v71 main_v75 main_v76 (addf : (⟨S4096x4096, .f32⟩ : BufTy).Contents (Elt F) → (⟨S4096x4096, .f32⟩ : BufTy).Contents (Elt F) → (⟨S4096x4096, .f32⟩ : BufTy).Contents (Elt F)),
    StableHlo.unary main_v66 main_v77 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v77 main_v76 main_v78 (mulf : (⟨S4096x4096, .f32⟩ : BufTy).Contents (Elt F) → (⟨S4096x4096, .f32⟩ : BufTy).Contents (Elt F) → (⟨S4096x4096, .f32⟩ : BufTy).Contents (Elt F)),
    StableHlo.binary main_v62 main_v78 main_v79 (addf : (⟨S4096x4096, .f32⟩ : BufTy).Contents (Elt F) → (⟨S4096x4096, .f32⟩ : BufTy).Contents (Elt F) → (⟨S4096x4096, .f32⟩ : BufTy).Contents (Elt F)) ]
/-- The buffers those operations write, in order. -/
abbrev wrE2 : List (Ref sig .tc) :=
  [ main_c_6, main_v63, main_v64, main_v65, main_v66, main_v67, main_v68, main_v69, main_v70, main_v71, main_v72, main_v73, main_v74, main_v75, main_v76, main_v77, main_v78, main_v79 ]
theorem opsE2_sub : (opsE2 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub ..⟩
theorem opsE2_fresh : (opsE2 : List (HloOp τ sig (Elt F))).Forall fun op => op.fresh = ∅ :=
  ⟨rfl, rfl, rfl, rfl, rfl, rfl, rfl, rfl, rfl, rfl, rfl, rfl, rfl, rfl, rfl, rfl, rfl, rfl⟩
theorem opsE2_wr : (opsE2 : List (HloOp τ sig (Elt F))).Forall fun op => op.writes ⊆ (wrE2.map (Proc.devRef (τ := τ) .tc)).toFinset :=
  ⟨wsub_of_mem (y := main_c_6) rfl (by decide),
   wsub_of_mem (y := main_v63) rfl (by decide),
   wsub_of_mem (y := main_v64) rfl (by decide),
   wsub_of_mem (y := main_v65) rfl (by decide),
   wsub_of_mem (y := main_v66) rfl (by decide),
   wsub_of_mem (y := main_v67) rfl (by decide),
   wsub_of_mem (y := main_v68) rfl (by decide),
   wsub_of_mem (y := main_v69) rfl (by decide),
   wsub_of_mem (y := main_v70) rfl (by decide),
   wsub_of_mem (y := main_v71) rfl (by decide),
   wsub_of_mem (y := main_v72) rfl (by decide),
   wsub_of_mem (y := main_v73) rfl (by decide),
   wsub_of_mem (y := main_v74) rfl (by decide),
   wsub_of_mem (y := main_v75) rfl (by decide),
   wsub_of_mem (y := main_v76) rfl (by decide),
   wsub_of_mem (y := main_v77) rfl (by decide),
   wsub_of_mem (y := main_v78) rfl (by decide),
   wsub_of_mem (y := main_v79) rfl (by decide)⟩

/-- Expert 3's eighteen operations: the gate, the gated hidden vectors times the expert's matrix plus its bias row, the gate again, and the running sum. -/
abbrev opsE3 : List (HloOp τ sig (Elt F)) :=
  [ StableHlo.nullary main_c_7 (constantI S_ 32 3#32),
    StableHlo.unary main_c_7 main_v80 (broadcastInDim S4096 ![] bcast_S_S4096 : (⟨S_, .i32⟩ : BufTy).Contents (Elt F) → (⟨S4096, .i32⟩ : BufTy).Contents (Elt F)),
    StableHlo.binary main_v2 main_v80 main_v81 (cmpi .eq : (⟨S4096, .i32⟩ : BufTy).Contents (Elt F) → (⟨S4096, .i32⟩ : BufTy).Contents (Elt F) → (⟨S4096, .i1⟩ : BufTy).Contents (Elt F)),
    StableHlo.unary main_v81 main_v82 (uitofp .f32 : (⟨S4096, .i1⟩ : BufTy).Contents (Elt F) → (⟨S4096, .f32⟩ : BufTy).Contents (Elt F)),
    StableHlo.unary main_v82 main_v83 (broadcastInDim S4096x1 ![0] bcast_S4096_S4096x1_0 : (⟨S4096, .f32⟩ : BufTy).Contents (Elt F) → (⟨S4096x1, .f32⟩ : BufTy).Contents (Elt F)),
    StableHlo.unary main_v83 main_v84 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v27 main_v84 main_v85 (mulf : (⟨S4096x2048, .f32⟩ : BufTy).Contents (Elt F) → (⟨S4096x2048, .f32⟩ : BufTy).Contents (Elt F) → (⟨S4096x2048, .f32⟩ : BufTy).Contents (Elt F)),
    StableHlo.unary main_arg3 main_v86 ((extractStridedSlice S1x2048x4096 ![3, 0, 0] · slices_S8x2048x4096_S1x2048x4096_3_0_0) : (⟨S8x2048x4096, .f32⟩ : BufTy).Contents (Elt F) → (⟨S1x2048x4096, .f32⟩ : BufTy).Contents (Elt F)),
    StableHlo.reshape main_v86 main_v87 rfl shapeCasts_S1x2048x4096_S2048x4096,
    StableHlo.binary main_v85 main_v87 main_v88 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_arg4 main_v89 ((extractStridedSlice S1x4096 ![3, 0] · slices_S8x4096_S1x4096_3_0) : (⟨S8x4096, .f32⟩ : BufTy).Contents (Elt F) → (⟨S1x4096, .f32⟩ : BufTy).Contents (Elt F)),
    StableHlo.reshape main_v89 main_v90 rfl shapeCasts_S1x4096_S4096,
    StableHlo.unary main_v90 main_v91 (broadcastInDim S1x4096 ![1] bcast_S4096_S1x4096_1 : (⟨S4096, .f32⟩ : BufTy).Contents (Elt F) → (⟨S1x4096, .f32⟩ : BufTy).Contents (Elt F)),
    StableHlo.unary main_v91 main_v92 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v88 main_v92 main_v93 (addf : (⟨S4096x4096, .f32⟩ : BufTy).Contents (Elt F) → (⟨S4096x4096, .f32⟩ : BufTy).Contents (Elt F) → (⟨S4096x4096, .f32⟩ : BufTy).Contents (Elt F)),
    StableHlo.unary main_v83 main_v94 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v94 main_v93 main_v95 (mulf : (⟨S4096x4096, .f32⟩ : BufTy).Contents (Elt F) → (⟨S4096x4096, .f32⟩ : BufTy).Contents (Elt F) → (⟨S4096x4096, .f32⟩ : BufTy).Contents (Elt F)),
    StableHlo.binary main_v79 main_v95 main_v96 (addf : (⟨S4096x4096, .f32⟩ : BufTy).Contents (Elt F) → (⟨S4096x4096, .f32⟩ : BufTy).Contents (Elt F) → (⟨S4096x4096, .f32⟩ : BufTy).Contents (Elt F)) ]
/-- The buffers those operations write, in order. -/
abbrev wrE3 : List (Ref sig .tc) :=
  [ main_c_7, main_v80, main_v81, main_v82, main_v83, main_v84, main_v85, main_v86, main_v87, main_v88, main_v89, main_v90, main_v91, main_v92, main_v93, main_v94, main_v95, main_v96 ]
theorem opsE3_sub : (opsE3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub ..⟩
theorem opsE3_fresh : (opsE3 : List (HloOp τ sig (Elt F))).Forall fun op => op.fresh = ∅ :=
  ⟨rfl, rfl, rfl, rfl, rfl, rfl, rfl, rfl, rfl, rfl, rfl, rfl, rfl, rfl, rfl, rfl, rfl, rfl⟩
theorem opsE3_wr : (opsE3 : List (HloOp τ sig (Elt F))).Forall fun op => op.writes ⊆ (wrE3.map (Proc.devRef (τ := τ) .tc)).toFinset :=
  ⟨wsub_of_mem (y := main_c_7) rfl (by decide),
   wsub_of_mem (y := main_v80) rfl (by decide),
   wsub_of_mem (y := main_v81) rfl (by decide),
   wsub_of_mem (y := main_v82) rfl (by decide),
   wsub_of_mem (y := main_v83) rfl (by decide),
   wsub_of_mem (y := main_v84) rfl (by decide),
   wsub_of_mem (y := main_v85) rfl (by decide),
   wsub_of_mem (y := main_v86) rfl (by decide),
   wsub_of_mem (y := main_v87) rfl (by decide),
   wsub_of_mem (y := main_v88) rfl (by decide),
   wsub_of_mem (y := main_v89) rfl (by decide),
   wsub_of_mem (y := main_v90) rfl (by decide),
   wsub_of_mem (y := main_v91) rfl (by decide),
   wsub_of_mem (y := main_v92) rfl (by decide),
   wsub_of_mem (y := main_v93) rfl (by decide),
   wsub_of_mem (y := main_v94) rfl (by decide),
   wsub_of_mem (y := main_v95) rfl (by decide),
   wsub_of_mem (y := main_v96) rfl (by decide)⟩

/-- Expert 4's eighteen operations: the gate, the gated hidden vectors times the expert's matrix plus its bias row, the gate again, and the running sum. -/
abbrev opsE4 : List (HloOp τ sig (Elt F)) :=
  [ StableHlo.nullary main_c_8 (constantI S_ 32 4#32),
    StableHlo.unary main_c_8 main_v97 (broadcastInDim S4096 ![] bcast_S_S4096 : (⟨S_, .i32⟩ : BufTy).Contents (Elt F) → (⟨S4096, .i32⟩ : BufTy).Contents (Elt F)),
    StableHlo.binary main_v2 main_v97 main_v98 (cmpi .eq : (⟨S4096, .i32⟩ : BufTy).Contents (Elt F) → (⟨S4096, .i32⟩ : BufTy).Contents (Elt F) → (⟨S4096, .i1⟩ : BufTy).Contents (Elt F)),
    StableHlo.unary main_v98 main_v99 (uitofp .f32 : (⟨S4096, .i1⟩ : BufTy).Contents (Elt F) → (⟨S4096, .f32⟩ : BufTy).Contents (Elt F)),
    StableHlo.unary main_v99 main_v100 (broadcastInDim S4096x1 ![0] bcast_S4096_S4096x1_0 : (⟨S4096, .f32⟩ : BufTy).Contents (Elt F) → (⟨S4096x1, .f32⟩ : BufTy).Contents (Elt F)),
    StableHlo.unary main_v100 main_v101 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v27 main_v101 main_v102 (mulf : (⟨S4096x2048, .f32⟩ : BufTy).Contents (Elt F) → (⟨S4096x2048, .f32⟩ : BufTy).Contents (Elt F) → (⟨S4096x2048, .f32⟩ : BufTy).Contents (Elt F)),
    StableHlo.unary main_arg3 main_v103 ((extractStridedSlice S1x2048x4096 ![4, 0, 0] · slices_S8x2048x4096_S1x2048x4096_4_0_0) : (⟨S8x2048x4096, .f32⟩ : BufTy).Contents (Elt F) → (⟨S1x2048x4096, .f32⟩ : BufTy).Contents (Elt F)),
    StableHlo.reshape main_v103 main_v104 rfl shapeCasts_S1x2048x4096_S2048x4096,
    StableHlo.binary main_v102 main_v104 main_v105 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_arg4 main_v106 ((extractStridedSlice S1x4096 ![4, 0] · slices_S8x4096_S1x4096_4_0) : (⟨S8x4096, .f32⟩ : BufTy).Contents (Elt F) → (⟨S1x4096, .f32⟩ : BufTy).Contents (Elt F)),
    StableHlo.reshape main_v106 main_v107 rfl shapeCasts_S1x4096_S4096,
    StableHlo.unary main_v107 main_v108 (broadcastInDim S1x4096 ![1] bcast_S4096_S1x4096_1 : (⟨S4096, .f32⟩ : BufTy).Contents (Elt F) → (⟨S1x4096, .f32⟩ : BufTy).Contents (Elt F)),
    StableHlo.unary main_v108 main_v109 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v105 main_v109 main_v110 (addf : (⟨S4096x4096, .f32⟩ : BufTy).Contents (Elt F) → (⟨S4096x4096, .f32⟩ : BufTy).Contents (Elt F) → (⟨S4096x4096, .f32⟩ : BufTy).Contents (Elt F)),
    StableHlo.unary main_v100 main_v111 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v111 main_v110 main_v112 (mulf : (⟨S4096x4096, .f32⟩ : BufTy).Contents (Elt F) → (⟨S4096x4096, .f32⟩ : BufTy).Contents (Elt F) → (⟨S4096x4096, .f32⟩ : BufTy).Contents (Elt F)),
    StableHlo.binary main_v96 main_v112 main_v113 (addf : (⟨S4096x4096, .f32⟩ : BufTy).Contents (Elt F) → (⟨S4096x4096, .f32⟩ : BufTy).Contents (Elt F) → (⟨S4096x4096, .f32⟩ : BufTy).Contents (Elt F)) ]
/-- The buffers those operations write, in order. -/
abbrev wrE4 : List (Ref sig .tc) :=
  [ main_c_8, main_v97, main_v98, main_v99, main_v100, main_v101, main_v102, main_v103, main_v104, main_v105, main_v106, main_v107, main_v108, main_v109, main_v110, main_v111, main_v112, main_v113 ]
theorem opsE4_sub : (opsE4 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub ..⟩
theorem opsE4_fresh : (opsE4 : List (HloOp τ sig (Elt F))).Forall fun op => op.fresh = ∅ :=
  ⟨rfl, rfl, rfl, rfl, rfl, rfl, rfl, rfl, rfl, rfl, rfl, rfl, rfl, rfl, rfl, rfl, rfl, rfl⟩
theorem opsE4_wr : (opsE4 : List (HloOp τ sig (Elt F))).Forall fun op => op.writes ⊆ (wrE4.map (Proc.devRef (τ := τ) .tc)).toFinset :=
  ⟨wsub_of_mem (y := main_c_8) rfl (by decide),
   wsub_of_mem (y := main_v97) rfl (by decide),
   wsub_of_mem (y := main_v98) rfl (by decide),
   wsub_of_mem (y := main_v99) rfl (by decide),
   wsub_of_mem (y := main_v100) rfl (by decide),
   wsub_of_mem (y := main_v101) rfl (by decide),
   wsub_of_mem (y := main_v102) rfl (by decide),
   wsub_of_mem (y := main_v103) rfl (by decide),
   wsub_of_mem (y := main_v104) rfl (by decide),
   wsub_of_mem (y := main_v105) rfl (by decide),
   wsub_of_mem (y := main_v106) rfl (by decide),
   wsub_of_mem (y := main_v107) rfl (by decide),
   wsub_of_mem (y := main_v108) rfl (by decide),
   wsub_of_mem (y := main_v109) rfl (by decide),
   wsub_of_mem (y := main_v110) rfl (by decide),
   wsub_of_mem (y := main_v111) rfl (by decide),
   wsub_of_mem (y := main_v112) rfl (by decide),
   wsub_of_mem (y := main_v113) rfl (by decide)⟩

/-- Expert 5's eighteen operations: the gate, the gated hidden vectors times the expert's matrix plus its bias row, the gate again, and the running sum. -/
abbrev opsE5 : List (HloOp τ sig (Elt F)) :=
  [ StableHlo.nullary main_c_9 (constantI S_ 32 5#32),
    StableHlo.unary main_c_9 main_v114 (broadcastInDim S4096 ![] bcast_S_S4096 : (⟨S_, .i32⟩ : BufTy).Contents (Elt F) → (⟨S4096, .i32⟩ : BufTy).Contents (Elt F)),
    StableHlo.binary main_v2 main_v114 main_v115 (cmpi .eq : (⟨S4096, .i32⟩ : BufTy).Contents (Elt F) → (⟨S4096, .i32⟩ : BufTy).Contents (Elt F) → (⟨S4096, .i1⟩ : BufTy).Contents (Elt F)),
    StableHlo.unary main_v115 main_v116 (uitofp .f32 : (⟨S4096, .i1⟩ : BufTy).Contents (Elt F) → (⟨S4096, .f32⟩ : BufTy).Contents (Elt F)),
    StableHlo.unary main_v116 main_v117 (broadcastInDim S4096x1 ![0] bcast_S4096_S4096x1_0 : (⟨S4096, .f32⟩ : BufTy).Contents (Elt F) → (⟨S4096x1, .f32⟩ : BufTy).Contents (Elt F)),
    StableHlo.unary main_v117 main_v118 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v27 main_v118 main_v119 (mulf : (⟨S4096x2048, .f32⟩ : BufTy).Contents (Elt F) → (⟨S4096x2048, .f32⟩ : BufTy).Contents (Elt F) → (⟨S4096x2048, .f32⟩ : BufTy).Contents (Elt F)),
    StableHlo.unary main_arg3 main_v120 ((extractStridedSlice S1x2048x4096 ![5, 0, 0] · slices_S8x2048x4096_S1x2048x4096_5_0_0) : (⟨S8x2048x4096, .f32⟩ : BufTy).Contents (Elt F) → (⟨S1x2048x4096, .f32⟩ : BufTy).Contents (Elt F)),
    StableHlo.reshape main_v120 main_v121 rfl shapeCasts_S1x2048x4096_S2048x4096,
    StableHlo.binary main_v119 main_v121 main_v122 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_arg4 main_v123 ((extractStridedSlice S1x4096 ![5, 0] · slices_S8x4096_S1x4096_5_0) : (⟨S8x4096, .f32⟩ : BufTy).Contents (Elt F) → (⟨S1x4096, .f32⟩ : BufTy).Contents (Elt F)),
    StableHlo.reshape main_v123 main_v124 rfl shapeCasts_S1x4096_S4096,
    StableHlo.unary main_v124 main_v125 (broadcastInDim S1x4096 ![1] bcast_S4096_S1x4096_1 : (⟨S4096, .f32⟩ : BufTy).Contents (Elt F) → (⟨S1x4096, .f32⟩ : BufTy).Contents (Elt F)),
    StableHlo.unary main_v125 main_v126 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v122 main_v126 main_v127 (addf : (⟨S4096x4096, .f32⟩ : BufTy).Contents (Elt F) → (⟨S4096x4096, .f32⟩ : BufTy).Contents (Elt F) → (⟨S4096x4096, .f32⟩ : BufTy).Contents (Elt F)),
    StableHlo.unary main_v117 main_v128 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v128 main_v127 main_v129 (mulf : (⟨S4096x4096, .f32⟩ : BufTy).Contents (Elt F) → (⟨S4096x4096, .f32⟩ : BufTy).Contents (Elt F) → (⟨S4096x4096, .f32⟩ : BufTy).Contents (Elt F)),
    StableHlo.binary main_v113 main_v129 main_v130 (addf : (⟨S4096x4096, .f32⟩ : BufTy).Contents (Elt F) → (⟨S4096x4096, .f32⟩ : BufTy).Contents (Elt F) → (⟨S4096x4096, .f32⟩ : BufTy).Contents (Elt F)) ]
/-- The buffers those operations write, in order. -/
abbrev wrE5 : List (Ref sig .tc) :=
  [ main_c_9, main_v114, main_v115, main_v116, main_v117, main_v118, main_v119, main_v120, main_v121, main_v122, main_v123, main_v124, main_v125, main_v126, main_v127, main_v128, main_v129, main_v130 ]
theorem opsE5_sub : (opsE5 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub ..⟩
theorem opsE5_fresh : (opsE5 : List (HloOp τ sig (Elt F))).Forall fun op => op.fresh = ∅ :=
  ⟨rfl, rfl, rfl, rfl, rfl, rfl, rfl, rfl, rfl, rfl, rfl, rfl, rfl, rfl, rfl, rfl, rfl, rfl⟩
theorem opsE5_wr : (opsE5 : List (HloOp τ sig (Elt F))).Forall fun op => op.writes ⊆ (wrE5.map (Proc.devRef (τ := τ) .tc)).toFinset :=
  ⟨wsub_of_mem (y := main_c_9) rfl (by decide),
   wsub_of_mem (y := main_v114) rfl (by decide),
   wsub_of_mem (y := main_v115) rfl (by decide),
   wsub_of_mem (y := main_v116) rfl (by decide),
   wsub_of_mem (y := main_v117) rfl (by decide),
   wsub_of_mem (y := main_v118) rfl (by decide),
   wsub_of_mem (y := main_v119) rfl (by decide),
   wsub_of_mem (y := main_v120) rfl (by decide),
   wsub_of_mem (y := main_v121) rfl (by decide),
   wsub_of_mem (y := main_v122) rfl (by decide),
   wsub_of_mem (y := main_v123) rfl (by decide),
   wsub_of_mem (y := main_v124) rfl (by decide),
   wsub_of_mem (y := main_v125) rfl (by decide),
   wsub_of_mem (y := main_v126) rfl (by decide),
   wsub_of_mem (y := main_v127) rfl (by decide),
   wsub_of_mem (y := main_v128) rfl (by decide),
   wsub_of_mem (y := main_v129) rfl (by decide),
   wsub_of_mem (y := main_v130) rfl (by decide)⟩

/-- Expert 6's eighteen operations: the gate, the gated hidden vectors times the expert's matrix plus its bias row, the gate again, and the running sum. -/
abbrev opsE6 : List (HloOp τ sig (Elt F)) :=
  [ StableHlo.nullary main_c_10 (constantI S_ 32 6#32),
    StableHlo.unary main_c_10 main_v131 (broadcastInDim S4096 ![] bcast_S_S4096 : (⟨S_, .i32⟩ : BufTy).Contents (Elt F) → (⟨S4096, .i32⟩ : BufTy).Contents (Elt F)),
    StableHlo.binary main_v2 main_v131 main_v132 (cmpi .eq : (⟨S4096, .i32⟩ : BufTy).Contents (Elt F) → (⟨S4096, .i32⟩ : BufTy).Contents (Elt F) → (⟨S4096, .i1⟩ : BufTy).Contents (Elt F)),
    StableHlo.unary main_v132 main_v133 (uitofp .f32 : (⟨S4096, .i1⟩ : BufTy).Contents (Elt F) → (⟨S4096, .f32⟩ : BufTy).Contents (Elt F)),
    StableHlo.unary main_v133 main_v134 (broadcastInDim S4096x1 ![0] bcast_S4096_S4096x1_0 : (⟨S4096, .f32⟩ : BufTy).Contents (Elt F) → (⟨S4096x1, .f32⟩ : BufTy).Contents (Elt F)),
    StableHlo.unary main_v134 main_v135 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v27 main_v135 main_v136 (mulf : (⟨S4096x2048, .f32⟩ : BufTy).Contents (Elt F) → (⟨S4096x2048, .f32⟩ : BufTy).Contents (Elt F) → (⟨S4096x2048, .f32⟩ : BufTy).Contents (Elt F)),
    StableHlo.unary main_arg3 main_v137 ((extractStridedSlice S1x2048x4096 ![6, 0, 0] · slices_S8x2048x4096_S1x2048x4096_6_0_0) : (⟨S8x2048x4096, .f32⟩ : BufTy).Contents (Elt F) → (⟨S1x2048x4096, .f32⟩ : BufTy).Contents (Elt F)),
    StableHlo.reshape main_v137 main_v138 rfl shapeCasts_S1x2048x4096_S2048x4096,
    StableHlo.binary main_v136 main_v138 main_v139 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_arg4 main_v140 ((extractStridedSlice S1x4096 ![6, 0] · slices_S8x4096_S1x4096_6_0) : (⟨S8x4096, .f32⟩ : BufTy).Contents (Elt F) → (⟨S1x4096, .f32⟩ : BufTy).Contents (Elt F)),
    StableHlo.reshape main_v140 main_v141 rfl shapeCasts_S1x4096_S4096,
    StableHlo.unary main_v141 main_v142 (broadcastInDim S1x4096 ![1] bcast_S4096_S1x4096_1 : (⟨S4096, .f32⟩ : BufTy).Contents (Elt F) → (⟨S1x4096, .f32⟩ : BufTy).Contents (Elt F)),
    StableHlo.unary main_v142 main_v143 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v139 main_v143 main_v144 (addf : (⟨S4096x4096, .f32⟩ : BufTy).Contents (Elt F) → (⟨S4096x4096, .f32⟩ : BufTy).Contents (Elt F) → (⟨S4096x4096, .f32⟩ : BufTy).Contents (Elt F)),
    StableHlo.unary main_v134 main_v145 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v145 main_v144 main_v146 (mulf : (⟨S4096x4096, .f32⟩ : BufTy).Contents (Elt F) → (⟨S4096x4096, .f32⟩ : BufTy).Contents (Elt F) → (⟨S4096x4096, .f32⟩ : BufTy).Contents (Elt F)),
    StableHlo.binary main_v130 main_v146 main_v147 (addf : (⟨S4096x4096, .f32⟩ : BufTy).Contents (Elt F) → (⟨S4096x4096, .f32⟩ : BufTy).Contents (Elt F) → (⟨S4096x4096, .f32⟩ : BufTy).Contents (Elt F)) ]
/-- The buffers those operations write, in order. -/
abbrev wrE6 : List (Ref sig .tc) :=
  [ main_c_10, main_v131, main_v132, main_v133, main_v134, main_v135, main_v136, main_v137, main_v138, main_v139, main_v140, main_v141, main_v142, main_v143, main_v144, main_v145, main_v146, main_v147 ]
theorem opsE6_sub : (opsE6 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub ..⟩
theorem opsE6_fresh : (opsE6 : List (HloOp τ sig (Elt F))).Forall fun op => op.fresh = ∅ :=
  ⟨rfl, rfl, rfl, rfl, rfl, rfl, rfl, rfl, rfl, rfl, rfl, rfl, rfl, rfl, rfl, rfl, rfl, rfl⟩
theorem opsE6_wr : (opsE6 : List (HloOp τ sig (Elt F))).Forall fun op => op.writes ⊆ (wrE6.map (Proc.devRef (τ := τ) .tc)).toFinset :=
  ⟨wsub_of_mem (y := main_c_10) rfl (by decide),
   wsub_of_mem (y := main_v131) rfl (by decide),
   wsub_of_mem (y := main_v132) rfl (by decide),
   wsub_of_mem (y := main_v133) rfl (by decide),
   wsub_of_mem (y := main_v134) rfl (by decide),
   wsub_of_mem (y := main_v135) rfl (by decide),
   wsub_of_mem (y := main_v136) rfl (by decide),
   wsub_of_mem (y := main_v137) rfl (by decide),
   wsub_of_mem (y := main_v138) rfl (by decide),
   wsub_of_mem (y := main_v139) rfl (by decide),
   wsub_of_mem (y := main_v140) rfl (by decide),
   wsub_of_mem (y := main_v141) rfl (by decide),
   wsub_of_mem (y := main_v142) rfl (by decide),
   wsub_of_mem (y := main_v143) rfl (by decide),
   wsub_of_mem (y := main_v144) rfl (by decide),
   wsub_of_mem (y := main_v145) rfl (by decide),
   wsub_of_mem (y := main_v146) rfl (by decide),
   wsub_of_mem (y := main_v147) rfl (by decide)⟩

/-- Expert 7's eighteen operations: the gate, the gated hidden vectors times the expert's matrix plus its bias row, the gate again, and the running sum. -/
abbrev opsE7 : List (HloOp τ sig (Elt F)) :=
  [ StableHlo.nullary main_c_11 (constantI S_ 32 7#32),
    StableHlo.unary main_c_11 main_v148 (broadcastInDim S4096 ![] bcast_S_S4096 : (⟨S_, .i32⟩ : BufTy).Contents (Elt F) → (⟨S4096, .i32⟩ : BufTy).Contents (Elt F)),
    StableHlo.binary main_v2 main_v148 main_v149 (cmpi .eq : (⟨S4096, .i32⟩ : BufTy).Contents (Elt F) → (⟨S4096, .i32⟩ : BufTy).Contents (Elt F) → (⟨S4096, .i1⟩ : BufTy).Contents (Elt F)),
    StableHlo.unary main_v149 main_v150 (uitofp .f32 : (⟨S4096, .i1⟩ : BufTy).Contents (Elt F) → (⟨S4096, .f32⟩ : BufTy).Contents (Elt F)),
    StableHlo.unary main_v150 main_v151 (broadcastInDim S4096x1 ![0] bcast_S4096_S4096x1_0 : (⟨S4096, .f32⟩ : BufTy).Contents (Elt F) → (⟨S4096x1, .f32⟩ : BufTy).Contents (Elt F)),
    StableHlo.unary main_v151 main_v152 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v27 main_v152 main_v153 (mulf : (⟨S4096x2048, .f32⟩ : BufTy).Contents (Elt F) → (⟨S4096x2048, .f32⟩ : BufTy).Contents (Elt F) → (⟨S4096x2048, .f32⟩ : BufTy).Contents (Elt F)),
    StableHlo.unary main_arg3 main_v154 ((extractStridedSlice S1x2048x4096 ![7, 0, 0] · slices_S8x2048x4096_S1x2048x4096_7_0_0) : (⟨S8x2048x4096, .f32⟩ : BufTy).Contents (Elt F) → (⟨S1x2048x4096, .f32⟩ : BufTy).Contents (Elt F)),
    StableHlo.reshape main_v154 main_v155 rfl shapeCasts_S1x2048x4096_S2048x4096,
    StableHlo.binary main_v153 main_v155 main_v156 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_arg4 main_v157 ((extractStridedSlice S1x4096 ![7, 0] · slices_S8x4096_S1x4096_7_0) : (⟨S8x4096, .f32⟩ : BufTy).Contents (Elt F) → (⟨S1x4096, .f32⟩ : BufTy).Contents (Elt F)),
    StableHlo.reshape main_v157 main_v158 rfl shapeCasts_S1x4096_S4096,
    StableHlo.unary main_v158 main_v159 (broadcastInDim S1x4096 ![1] bcast_S4096_S1x4096_1 : (⟨S4096, .f32⟩ : BufTy).Contents (Elt F) → (⟨S1x4096, .f32⟩ : BufTy).Contents (Elt F)),
    StableHlo.unary main_v159 main_v160 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v156 main_v160 main_v161 (addf : (⟨S4096x4096, .f32⟩ : BufTy).Contents (Elt F) → (⟨S4096x4096, .f32⟩ : BufTy).Contents (Elt F) → (⟨S4096x4096, .f32⟩ : BufTy).Contents (Elt F)),
    StableHlo.unary main_v151 main_v162 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v162 main_v161 main_v163 (mulf : (⟨S4096x4096, .f32⟩ : BufTy).Contents (Elt F) → (⟨S4096x4096, .f32⟩ : BufTy).Contents (Elt F) → (⟨S4096x4096, .f32⟩ : BufTy).Contents (Elt F)),
    StableHlo.binary main_v147 main_v163 main_v164 (addf : (⟨S4096x4096, .f32⟩ : BufTy).Contents (Elt F) → (⟨S4096x4096, .f32⟩ : BufTy).Contents (Elt F) → (⟨S4096x4096, .f32⟩ : BufTy).Contents (Elt F)) ]
/-- The buffers those operations write, in order. -/
abbrev wrE7 : List (Ref sig .tc) :=
  [ main_c_11, main_v148, main_v149, main_v150, main_v151, main_v152, main_v153, main_v154, main_v155, main_v156, main_v157, main_v158, main_v159, main_v160, main_v161, main_v162, main_v163, main_v164 ]
theorem opsE7_sub : (opsE7 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub ..⟩
theorem opsE7_fresh : (opsE7 : List (HloOp τ sig (Elt F))).Forall fun op => op.fresh = ∅ :=
  ⟨rfl, rfl, rfl, rfl, rfl, rfl, rfl, rfl, rfl, rfl, rfl, rfl, rfl, rfl, rfl, rfl, rfl, rfl⟩
theorem opsE7_wr : (opsE7 : List (HloOp τ sig (Elt F))).Forall fun op => op.writes ⊆ (wrE7.map (Proc.devRef (τ := τ) .tc)).toFinset :=
  ⟨wsub_of_mem (y := main_c_11) rfl (by decide),
   wsub_of_mem (y := main_v148) rfl (by decide),
   wsub_of_mem (y := main_v149) rfl (by decide),
   wsub_of_mem (y := main_v150) rfl (by decide),
   wsub_of_mem (y := main_v151) rfl (by decide),
   wsub_of_mem (y := main_v152) rfl (by decide),
   wsub_of_mem (y := main_v153) rfl (by decide),
   wsub_of_mem (y := main_v154) rfl (by decide),
   wsub_of_mem (y := main_v155) rfl (by decide),
   wsub_of_mem (y := main_v156) rfl (by decide),
   wsub_of_mem (y := main_v157) rfl (by decide),
   wsub_of_mem (y := main_v158) rfl (by decide),
   wsub_of_mem (y := main_v159) rfl (by decide),
   wsub_of_mem (y := main_v160) rfl (by decide),
   wsub_of_mem (y := main_v161) rfl (by decide),
   wsub_of_mem (y := main_v162) rfl (by decide),
   wsub_of_mem (y := main_v163) rfl (by decide),
   wsub_of_mem (y := main_v164) rfl (by decide)⟩

/-- @main's 215 operations, in order. -/
abbrev ops : List (HloOp τ sig (Elt F)) := opsA ++ (opsB ++ (opsE0 ++ (opsE1 ++ (opsE2 ++ (opsE3 ++ (opsE4 ++ (opsE5 ++ (opsE6 ++ (opsE7)))))))))

theorem ops_sub : (ops : List (HloOp τ sig (Elt F))).Forall fun op => op.bufs ⊆ tcRefs τ sig :=
  forall_append' opsA_sub (forall_append' opsB_sub (forall_append' opsE0_sub (forall_append' opsE1_sub (forall_append' opsE2_sub (forall_append' opsE3_sub (forall_append' opsE4_sub (forall_append' opsE5_sub (forall_append' opsE6_sub (opsE7_sub)))))))))

theorem ops_fresh : ∀ op ∈ (ops : List (HloOp τ sig (Elt F))), op.fresh = ∅ :=
  List.forall_iff_forall_mem.mp (forall_append' opsA_fresh (forall_append' opsB_fresh (forall_append' opsE0_fresh (forall_append' opsE1_fresh (forall_append' opsE2_fresh (forall_append' opsE3_fresh (forall_append' opsE4_fresh (forall_append' opsE5_fresh (forall_append' opsE6_fresh (opsE7_fresh))))))))))

end Cert.ReferenceIdeal.RefValue

end
-- ==== Proof.RefMainEq.lean ====
/-
  @main is the straight line of its 215 operations: the three windows it is printed in, run in order, with each function's
  definition unfolded at its call and the call's record at its fields, are one chain of single operations — the same
  chain the list's sequence unfolds to.
-/
import proofs.«169237_j8847632630028_1_alg».proof.Proof.RefOps
import Idealize.ShloMosaic.Lib.Pipeline.Regions

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Both sides unfold, operation by operation, to the same tree of requests: the sequencing of a free monad
    re-associates by computation. -/
theorem main_eq (c : Dev nD) : main (F := F) c = seq ops := by
  chain_rfl

end Cert.ReferenceIdeal.RefValue

end
-- ==== Proof.RefStretchA.lean ====
/-
  The first stretch read back, from any contents `W` of the buffers: after it the expert buffer holds the floor quotient
  of the frame numbers and the position buffer the remainder as a float — each the one function of the frame column and
  the divisor that the shared specification names —, and every buffer the stretch does not write holds what it held.
-/
import proofs.«169237_j8847632630028_1_alg».proof.Proof.RefOps
import proofs.«169237_j8847632630028_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer the stretch does not write keeps its contents. -/
theorem A_keep (W : Valuation τ sig (Elt F)) {r : Ref sig .tc} (hr : r ∉ (wrA : List (Ref sig .tc))) :
    after opsA W (no_index (Proc.devRef .tc r)) = W (Proc.devRef .tc r) :=
  after_of_writes_sub opsA W opsA_wr hr

/-- The reference's %2: the operations' composed term at the expert buffer is the specification's floor quotient, the
    typed references' transports being identities at these literal references. -/
theorem A_expert (W : Valuation τ sig (Elt F)) :
    after opsA W (main_v2 : DevRef τ sig) = Switch.expertOf (W (main_arg0 : DevRef τ sig)) (W (main_arg5 : DevRef τ sig)) := by
  after_results_simp
  simp only [ofBuf_toBuf]
  rfl

/-- The reference's %4: the remainder with the divisor's sign, as a float. -/
theorem A_position (W : Valuation τ sig (Elt F)) :
    after opsA W (main_v4 : DevRef τ sig) = Switch.positionOf (W (main_arg0 : DevRef τ sig)) (W (main_arg5 : DevRef τ sig)) := by
  after_results_simp
  simp only [ofBuf_toBuf]
  rfl

end Cert.ReferenceIdeal.RefValue

end
-- ==== Proof.RefStretchB.lean ====
/-
  The second stretch read back, from any contents `W`: after it the hidden-vector buffer holds `hidden` of the expert
  and position buffers and the two tables, the accumulator's start holds the zero matrix, and every buffer the stretch
  does not write holds what it held.
-/
import proofs.«169237_j8847632630028_1_alg».proof.Proof.RefOps
import proofs.«169237_j8847632630028_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer the stretch does not write keeps its contents. -/
theorem B_keep (W : Valuation τ sig (Elt F)) {r : Ref sig .tc} (hr : r ∉ (wrB : List (Ref sig .tc))) :
    after opsB W (no_index (Proc.devRef .tc r)) = W (Proc.devRef .tc r) :=
  after_of_writes_sub opsB W opsB_wr hr

/-- The reference's %27. -/
theorem B_hidden (W : Valuation τ sig (Elt F)) :
    after opsB W (main_v27 : DevRef τ sig) = hidden (W (main_v2 : DevRef τ sig)) (W (main_v4 : DevRef τ sig)) (W (main_arg1 : DevRef τ sig)) (W (main_arg2 : DevRef τ sig)) := by
  after_results_simp
  simp only [ofBuf_toBuf]
  rfl

/-- The reference's %28: the zero the sum over the experts starts from. -/
theorem B_zero (W : Valuation τ sig (Elt F)) :
    after opsB W (main_v28 : DevRef τ sig) = broadcastInDim S4096x4096 ![] bcast_S_S4096x4096 (constant S_ .f32 0x00000000#32) := by
  after_results_simp

end Cert.ReferenceIdeal.RefValue

end
-- ==== Proof.RefStretchE0.lean ====
/-
  The experts' stretches 0 … 3 read back, from any contents `W`: after expert `k`'s stretch the running sum's
  new buffer holds the old sum plus the expert's term of the expert buffer, the hidden vectors and the expert's
  slices of the weights and the biases; every buffer the stretch does not write holds what it held.
-/
import proofs.«169237_j8847632630028_1_alg».proof.Proof.RefOps
import proofs.«169237_j8847632630028_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer the stretch does not write keeps its contents. -/
theorem E0_keep (W : Valuation τ sig (Elt F)) {r : Ref sig .tc} (hr : r ∉ (wrE0 : List (Ref sig .tc))) :
    after opsE0 W (no_index (Proc.devRef .tc r)) = W (Proc.devRef .tc r) :=
  after_of_writes_sub opsE0 W opsE0_wr hr
/-- Expert 0: the reference's %45. -/
theorem E0_acc (W : Valuation τ sig (Elt F)) :
    after opsE0 W (main_v45 : DevRef τ sig)
      = addf (W (main_v28 : DevRef τ sig))
          (expertTerm 0#32 ![0, 0, 0] slices_S8x2048x4096_S1x2048x4096_0_0_0 ![0, 0] slices_S8x4096_S1x4096_0_0
            (W (main_v2 : DevRef τ sig)) (W (main_v27 : DevRef τ sig)) (W (main_arg3 : DevRef τ sig)) (W (main_arg4 : DevRef τ sig))) := by
  after_results_simp
  rfl

/-- A buffer the stretch does not write keeps its contents. -/
theorem E1_keep (W : Valuation τ sig (Elt F)) {r : Ref sig .tc} (hr : r ∉ (wrE1 : List (Ref sig .tc))) :
    after opsE1 W (no_index (Proc.devRef .tc r)) = W (Proc.devRef .tc r) :=
  after_of_writes_sub opsE1 W opsE1_wr hr
/-- Expert 1: the reference's %62. -/
theorem E1_acc (W : Valuation τ sig (Elt F)) :
    after opsE1 W (main_v62 : DevRef τ sig)
      = addf (W (main_v45 : DevRef τ sig))
          (expertTerm 1#32 ![1, 0, 0] slices_S8x2048x4096_S1x2048x4096_1_0_0 ![1, 0] slices_S8x4096_S1x4096_1_0
            (W (main_v2 : DevRef τ sig)) (W (main_v27 : DevRef τ sig)) (W (main_arg3 : DevRef τ sig)) (W (main_arg4 : DevRef τ sig))) := by
  after_results_simp
  rfl

/-- A buffer the stretch does not write keeps its contents. -/
theorem E2_keep (W : Valuation τ sig (Elt F)) {r : Ref sig .tc} (hr : r ∉ (wrE2 : List (Ref sig .tc))) :
    after opsE2 W (no_index (Proc.devRef .tc r)) = W (Proc.devRef .tc r) :=
  after_of_writes_sub opsE2 W opsE2_wr hr
/-- Expert 2: the reference's %79. -/
theorem E2_acc (W : Valuation τ sig (Elt F)) :
    after opsE2 W (main_v79 : DevRef τ sig)
      = addf (W (main_v62 : DevRef τ sig))
          (expertTerm 2#32 ![2, 0, 0] slices_S8x2048x4096_S1x2048x4096_2_0_0 ![2, 0] slices_S8x4096_S1x4096_2_0
            (W (main_v2 : DevRef τ sig)) (W (main_v27 : DevRef τ sig)) (W (main_arg3 : DevRef τ sig)) (W (main_arg4 : DevRef τ sig))) := by
  after_results_simp
  rfl

/-- A buffer the stretch does not write keeps its contents. -/
theorem E3_keep (W : Valuation τ sig (Elt F)) {r : Ref sig .tc} (hr : r ∉ (wrE3 : List (Ref sig .tc))) :
    after opsE3 W (no_index (Proc.devRef .tc r)) = W (Proc.devRef .tc r) :=
  after_of_writes_sub opsE3 W opsE3_wr hr
/-- Expert 3: the reference's %96. -/
theorem E3_acc (W : Valuation τ sig (Elt F)) :
    after opsE3 W (main_v96 : DevRef τ sig)
      = addf (W (main_v79 : DevRef τ sig))
          (expertTerm 3#32 ![3, 0, 0] slices_S8x2048x4096_S1x2048x4096_3_0_0 ![3, 0] slices_S8x4096_S1x4096_3_0
            (W (main_v2 : DevRef τ sig)) (W (main_v27 : DevRef τ sig)) (W (main_arg3 : DevRef τ sig)) (W (main_arg4 : DevRef τ sig))) := by
  after_results_simp
  rfl

end Cert.ReferenceIdeal.RefValue

end
-- ==== Proof.RefStretchE4.lean ====
/-
  The experts' stretches 4 … 7 read back, from any contents `W`: after expert `k`'s stretch the running sum's
  new buffer holds the old sum plus the expert's term of the expert buffer, the hidden vectors and the expert's
  slices of the weights and the biases; every buffer the stretch does not write holds what it held.
-/
import proofs.«169237_j8847632630028_1_alg».proof.Proof.RefOps
import proofs.«169237_j8847632630028_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer the stretch does not write keeps its contents. -/
theorem E4_keep (W : Valuation τ sig (Elt F)) {r : Ref sig .tc} (hr : r ∉ (wrE4 : List (Ref sig .tc))) :
    after opsE4 W (no_index (Proc.devRef .tc r)) = W (Proc.devRef .tc r) :=
  after_of_writes_sub opsE4 W opsE4_wr hr
/-- Expert 4: the reference's %113. -/
theorem E4_acc (W : Valuation τ sig (Elt F)) :
    after opsE4 W (main_v113 : DevRef τ sig)
      = addf (W (main_v96 : DevRef τ sig))
          (expertTerm 4#32 ![4, 0, 0] slices_S8x2048x4096_S1x2048x4096_4_0_0 ![4, 0] slices_S8x4096_S1x4096_4_0
            (W (main_v2 : DevRef τ sig)) (W (main_v27 : DevRef τ sig)) (W (main_arg3 : DevRef τ sig)) (W (main_arg4 : DevRef τ sig))) := by
  after_results_simp
  rfl

/-- A buffer the stretch does not write keeps its contents. -/
theorem E5_keep (W : Valuation τ sig (Elt F)) {r : Ref sig .tc} (hr : r ∉ (wrE5 : List (Ref sig .tc))) :
    after opsE5 W (no_index (Proc.devRef .tc r)) = W (Proc.devRef .tc r) :=
  after_of_writes_sub opsE5 W opsE5_wr hr
/-- Expert 5: the reference's %130. -/
theorem E5_acc (W : Valuation τ sig (Elt F)) :
    after opsE5 W (main_v130 : DevRef τ sig)
      = addf (W (main_v113 : DevRef τ sig))
          (expertTerm 5#32 ![5, 0, 0] slices_S8x2048x4096_S1x2048x4096_5_0_0 ![5, 0] slices_S8x4096_S1x4096_5_0
            (W (main_v2 : DevRef τ sig)) (W (main_v27 : DevRef τ sig)) (W (main_arg3 : DevRef τ sig)) (W (main_arg4 : DevRef τ sig))) := by
  after_results_simp
  rfl

/-- A buffer the stretch does not write keeps its contents. -/
theorem E6_keep (W : Valuation τ sig (Elt F)) {r : Ref sig .tc} (hr : r ∉ (wrE6 : List (Ref sig .tc))) :
    after opsE6 W (no_index (Proc.devRef .tc r)) = W (Proc.devRef .tc r) :=
  after_of_writes_sub opsE6 W opsE6_wr hr
/-- Expert 6: the reference's %147. -/
theorem E6_acc (W : Valuation τ sig (Elt F)) :
    after opsE6 W (main_v147 : DevRef τ sig)
      = addf (W (main_v130 : DevRef τ sig))
          (expertTerm 6#32 ![6, 0, 0] slices_S8x2048x4096_S1x2048x4096_6_0_0 ![6, 0] slices_S8x4096_S1x4096_6_0
            (W (main_v2 : DevRef τ sig)) (W (main_v27 : DevRef τ sig)) (W (main_arg3 : DevRef τ sig)) (W (main_arg4 : DevRef τ sig))) := by
  after_results_simp
  rfl

/-- A buffer the stretch does not write keeps its contents. -/
theorem E7_keep (W : Valuation τ sig (Elt F)) {r : Ref sig .tc} (hr : r ∉ (wrE7 : List (Ref sig .tc))) :
    after opsE7 W (no_index (Proc.devRef .tc r)) = W (Proc.devRef .tc r) :=
  after_of_writes_sub opsE7 W opsE7_wr hr
/-- Expert 7: the reference's %164. -/
theorem E7_acc (W : Valuation τ sig (Elt F)) :
    after opsE7 W (main_v164 : DevRef τ sig)
      = addf (W (main_v147 : DevRef τ sig))
          (expertTerm 7#32 ![7, 0, 0] slices_S8x2048x4096_S1x2048x4096_7_0_0 ![7, 0] slices_S8x4096_S1x4096_7_0
            (W (main_v2 : DevRef τ sig)) (W (main_v27 : DevRef τ sig)) (W (main_arg3 : DevRef τ sig)) (W (main_arg4 : DevRef τ sig))) := by
  after_results_simp
  rfl

end Cert.ReferenceIdeal.RefValue

end
-- ==== Proof.RefRun.lean ====
/-
  The reference's run: on every device, from any memory with zero counters, every weakly fair execution of @main
  terminates with the result buffer at `refOut` of the six arguments' launch contents and the arguments unchanged.
  The contents after the whole line are the contents after its ten stretches in turn; each stretch's lemma reads its
  result from ANY contents before it, so the results chain back: the running sum through the eight experts to the zero
  matrix, the expert and hidden-vector buffers (written once, kept by every later stretch) to the first two stretches,
  the arguments (never written) to the launch.
-/
import proofs.«169237_j8847632630028_1_alg».proof.Proof.RefMainEq
import proofs.«169237_j8847632630028_1_alg».proof.Proof.RefStretchA
import proofs.«169237_j8847632630028_1_alg».proof.Proof.RefStretchB
import proofs.«169237_j8847632630028_1_alg».proof.Proof.RefStretchE0
import proofs.«169237_j8847632630028_1_alg».proof.Proof.RefStretchE4

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after the line are the contents after the ten stretches in turn. -/
theorem after_ops (V : Valuation τ sig (Elt F)) :
    after ops V = after opsE7 (after opsE6 (after opsE5 (after opsE4 (after opsE3 (after opsE2 (after opsE1 (after opsE0 (after opsB (after opsA (V)))))))))) := by
  simp only [ops, after_append]

/-- The result buffer after the line, from any contents: `refOut` of the arguments' contents. -/
theorem out_eq (V : Valuation τ sig (Elt F)) :
    after ops V (main_v164 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops]
  rw [E7_acc]
  rw [E6_acc, E6_keep _ (r := main_v2) (by decide), E6_keep _ (r := main_v27) (by decide), E6_keep _ (r := main_arg3) (by decide), E6_keep _ (r := main_arg4) (by decide)]
  rw [E5_acc, E5_keep _ (r := main_v2) (by decide), E5_keep _ (r := main_v27) (by decide), E5_keep _ (r := main_arg3) (by decide), E5_keep _ (r := main_arg4) (by decide)]
  rw [E4_acc, E4_keep _ (r := main_v2) (by decide), E4_keep _ (r := main_v27) (by decide), E4_keep _ (r := main_arg3) (by decide), E4_keep _ (r := main_arg4) (by decide)]
  rw [E3_acc, E3_keep _ (r := main_v2) (by decide), E3_keep _ (r := main_v27) (by decide), E3_keep _ (r := main_arg3) (by decide), E3_keep _ (r := main_arg4) (by decide)]
  rw [E2_acc, E2_keep _ (r := main_v2) (by decide), E2_keep _ (r := main_v27) (by decide), E2_keep _ (r := main_arg3) (by decide), E2_keep _ (r := main_arg4) (by decide)]
  rw [E1_acc, E1_keep _ (r := main_v2) (by decide), E1_keep _ (r := main_v27) (by decide), E1_keep _ (r := main_arg3) (by decide), E1_keep _ (r := main_arg4) (by decide)]
  rw [E0_acc, E0_keep _ (r := main_v2) (by decide), E0_keep _ (r := main_v27) (by decide), E0_keep _ (r := main_arg3) (by decide), E0_keep _ (r := main_arg4) (by decide)]
  rw [B_zero, B_hidden, B_keep _ (r := main_v2) (by decide), B_keep _ (r := main_arg3) (by decide), B_keep _ (r := main_arg4) (by decide)]
  rw [A_expert, A_position, A_keep _ (r := main_arg1) (by decide), A_keep _ (r := main_arg2) (by decide), A_keep _ (r := main_arg3) (by decide), A_keep _ (r := main_arg4) (by decide)]
  rfl

/-- An argument's buffer after the line, from any contents: what it held (no stretch writes it). -/
theorem arg_keep (V : Valuation τ sig (Elt F)) {r : Ref sig .tc}
    (hA : r ∉ (wrA : List (Ref sig .tc))) (hB : r ∉ (wrB : List (Ref sig .tc)))
    (h0 : r ∉ (wrE0 : List (Ref sig .tc))) (h1 : r ∉ (wrE1 : List (Ref sig .tc))) (h2 : r ∉ (wrE2 : List (Ref sig .tc)))
    (h3 : r ∉ (wrE3 : List (Ref sig .tc))) (h4 : r ∉ (wrE4 : List (Ref sig .tc))) (h5 : r ∉ (wrE5 : List (Ref sig .tc)))
    (h6 : r ∉ (wrE6 : List (Ref sig .tc))) (h7 : r ∉ (wrE7 : List (Ref sig .tc))) :
    after ops V (Proc.devRef .tc r) = V (Proc.devRef .tc r) := by
  rw [after_ops, E7_keep _ h7, E6_keep _ h6, E5_keep _ h5, E4_keep _ h4, E3_keep _ h3, E2_keep _ h2, E1_keep _ h1, E0_keep _ h0,
    B_keep _ hB, A_keep _ hA]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v164).trans (out_eq (launchContents m c)),
      (h c main_arg0).trans (arg_keep (launchContents m c) (by decide) (by decide) (by decide) (by decide) (by decide) (by decide) (by decide) (by decide) (by decide) (by decide)),
      (h c main_arg1).trans (arg_keep (launchContents m c) (by decide) (by decide) (by decide) (by decide) (by decide) (by decide) (by decide) (by decide) (by decide) (by decide)),
      (h c main_arg2).trans (arg_keep (launchContents m c) (by decide) (by decide) (by decide) (by decide) (by decide) (by decide) (by decide) (by decide) (by decide) (by decide)),
      (h c main_arg3).trans (arg_keep (launchContents m c) (by decide) (by decide) (by decide) (by decide) (by decide) (by decide) (by decide) (by decide) (by decide) (by decide)),
      (h c main_arg4).trans (arg_keep (launchContents m c) (by decide) (by decide) (by decide) (by decide) (by decide) (by decide) (by decide) (by decide) (by decide) (by decide)),
      (h c main_arg5).trans (arg_keep (launchContents m c) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefValue

end
-- ==== Proof.lean ====
/-
  The certificate of the switch (per-row expert routing) kernel against its reference.

  Each row of the batch carries a frame number; its floor quotient by the number of frames per expert is the row's
  expert, the remainder its position inside the expert. The output row is the expert's two-layer network applied to
  the position: max(position · W1[expert] + b1[expert], 0) · W2[expert] + b2[expert]. Both programs compute it as a sum
  over all eight experts of gated terms, the gate being one for the row's own expert and zero for the others.

  The kernel walks a grid of 32 row tiles by 8 experts, resetting an output tile at the first expert and adding one
  expert's gated contribution at each point; the reference adds the eight experts' gated terms, in the same order,
  from a zero array. On the extended reals (floats exact, a change of float format the identity) the two are equal
  entry by entry and expert by expert: see Proof/Bridge.lean. The kernel's run and the value of its output array are
  the generated frame and value modules; the reference's run is Proof/RefRun.lean over the named terms of
  Proof/RefTerms.lean. No precondition is used by the value equality: a product with a zero gate is zero for any
  other factor, finite or not.
-/
import proofs.«169237_j8847632630028_1_alg».proof.Defs
import proofs.«169237_j8847632630028_1_alg».proof.Proof.Gen.Kernel
import proofs.«169237_j8847632630028_1_alg».proof.Proof.Gen.Kernel.Frame
import proofs.«169237_j8847632630028_1_alg».proof.Proof.Gen.KernelIdeal
import proofs.«169237_j8847632630028_1_alg».proof.Proof.Gen.KernelIdeal.Frame
import proofs.«169237_j8847632630028_1_alg».proof.Proof.Gen.KernelIdeal.Value
import proofs.«169237_j8847632630028_1_alg».proof.Proof.Gen.ReferenceIdeal
import proofs.«169237_j8847632630028_1_alg».proof.Proof.Gen.Pre_finite_inputs
import proofs.«169237_j8847632630028_1_alg».proof.Proof.Bridge
import proofs.«169237_j8847632630028_1_alg».proof.Proof.RefRun

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- From memories that agree on the arguments, both programs end with the same output array: the kernel's output array
    is the reference's function of the arguments (the bridge), and the reference's run ends at that function. -/
theorem algebraic : Cert.algebraic_KernelIdeal_ReferenceIdeal := by
  intro m ρ m' ρ' _ hagree
  refine ⟨fun c => Cert.KernelIdeal.Value.G6 m c, Cert.KernelIdeal.Value.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact (Cert.Bridge.out_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
